-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x3200000 : Shape := ⟨2, ![2, 3200000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x64 .f32) (main_arg4 : FVec F S64 .f32) (main_arg5 : IVec S2x3200000 32) (main_arg6 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩

abbrev nBuf : Space → Nat
  | .hbm => 108
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S2x3200000, .i32⟩
  | .hbm, ⟨6, _⟩ => ⟨S100000, .i32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x128, .bf16⟩
  | .hbm, ⟨51, _⟩ => ⟨S128x64, .bf16⟩
  | .hbm, ⟨52, _⟩ => ⟨S100000x64, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x64, .f32⟩
  | .hbm, ⟨62, _⟩ => ⟨S3300000x1, .f32⟩
  | .hbm, ⟨63, _⟩ => ⟨S3300000x64, .f32⟩
  | .hbm, ⟨64, _⟩ => ⟨S3300000x64, .f32⟩
  | .hbm, ⟨65, _⟩ => ⟨S_, .f32⟩
  | .hbm, ⟨66, _⟩ => ⟨S100000x64, .f32⟩
  | .hbm, ⟨67, _⟩ => ⟨S3300000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .bf16⟩
  | .hbm, ⟨72, _⟩ => ⟨S64x64, .bf16⟩
  | .hbm, ⟨73, _⟩ => ⟨S100000x64, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x64, .f32⟩
  | .hbm, ⟨83, _⟩ => ⟨S3300000x1, .f32⟩
  | .hbm, ⟨84, _⟩ => ⟨S3300000x64, .f32⟩
  | .hbm, ⟨85, _⟩ => ⟨S3300000x64, .f32⟩
  | .hbm, ⟨86, _⟩ => ⟨S_, .f32⟩
  | .hbm, ⟨87, _⟩ => ⟨S100000x64, .f32⟩
  | .hbm, ⟨88, _⟩ => ⟨S3300000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S_, .f32⟩
  | .hbm, ⟨93, _⟩ => ⟨S512x64, .f32⟩
  | .hbm, ⟨94, _⟩ => ⟨S100000x1, .i32⟩
  | .hbm, ⟨95, _⟩ => ⟨S512x64, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S512, .f32⟩
  | .hbm, ⟨100, _⟩ => ⟨S100000x1, .i32⟩
  | .hbm, ⟨101, _⟩ => ⟨S512, .f32⟩
  | .hbm, ⟨102, _⟩ => ⟨S_, .f32⟩
  | .hbm, ⟨103, _⟩ => ⟨S512, .f32⟩
  | .hbm, ⟨104, _⟩ => ⟨S512, .f32⟩
  | .hbm, ⟨105, _⟩ => ⟨S512x1, .f32⟩
  | .hbm, ⟨106, _⟩ => ⟨S512x64, .f32⟩
  | .hbm, ⟨107, _⟩ => ⟨S512x64, .f32⟩
  | .local _ .vmem, ⟨0, _⟩ => ⟨S10000x128, .bf16⟩
  | .local _ .vmem, ⟨1, _⟩ => ⟨S10000x128, .bf16⟩
  | .local _ .vmem, ⟨2, _⟩ => ⟨S128x64, .bf16⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .bf16⟩
  | .local _ .vmem, ⟨11, _⟩ => ⟨S10000x64, .bf16⟩
  | .local _ .vmem, ⟨12, _⟩ => ⟨S64x64, .bf16⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .bf16 = 32 ∨ (Rect.block (s := S100000x64) S10000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .bf16 = 32 ∨ (Rect.block (s := S64x64) S64x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

abbrev win0_0 : Pipeline.Window sig grid0 :=
  Pipeline.Window.ofSpec (Memref.whole main_v32) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x64 : Shape := ⟨2, ![100000, 64]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64x64, .f32⟩
  | 4 => ⟨S64, .f32⟩
  | 5 => ⟨S2x3200000, .i32⟩
  | 6 => ⟨S100000, .i32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S100000x64, .f32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x64, .f32⟩
  | 60 => ⟨S3300000x1, .f32⟩
  | 61 => ⟨S3300000x64, .f32⟩
  | 62 => ⟨S3300000x64, .f32⟩
  | 63 => ⟨S_, .f32⟩
  | 64 => ⟨S100000x64, .f32⟩
  | 65 => ⟨S3300000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .f32⟩
  | 75 => ⟨S3300000, .f32⟩
  | 76 => ⟨S_, .f32⟩
  | 77 => ⟨S100000, .f32⟩
  | 78 => ⟨S3300000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x64, .f32⟩
  | 119 => ⟨S3300000x1, .f32⟩
  | 120 => ⟨S3300000x64, .f32⟩
  | 121 => ⟨S3300000x64, .f32⟩
  | 122 => ⟨S_, .f32⟩
  | 123 => ⟨S100000x64, .f32⟩
  | 124 => ⟨S3300000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S_, .f32⟩
  | 5 => ⟨S512x64, .f32⟩
  | 6 => ⟨S100000x1, .i32⟩
  | 7 => ⟨S512x64, .f32⟩
  | 8 => ⟨S_, .f32⟩
  | 9 => ⟨S100000, .f32⟩
  | 10 => ⟨S_, .f32⟩
  | 11 => ⟨S512, .f32⟩
  | 12 => ⟨S100000x1, .i32⟩
  | 13 => ⟨S512, .f32⟩
  | 14 => ⟨S_, .f32⟩
  | 15 => ⟨S512, .f32⟩
  | 16 => ⟨S512, .f32⟩
  | 17 => ⟨S512x1, .f32⟩
  | 18 => ⟨S512x64, .f32⟩
  | 19 => ⟨S512x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_call2_v0 : Ref sig .tc := ⟨.hbm, 88, rfl⟩
abbrev main_call2_v1 : Ref sig .tc := ⟨.hbm, 89, rfl⟩
abbrev main_v60 : Ref sig .tc := ⟨.hbm, 90, rfl⟩
abbrev main_c_15 : Ref sig .tc := ⟨.hbm, 91, rfl⟩
abbrev main_v61 : Ref sig .tc := ⟨.hbm, 92, rfl⟩
abbrev main_v62 : Ref sig .tc := ⟨.hbm, 93, rfl⟩
abbrev main_c_16 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_17 : Ref sig .tc := ⟨.hbm, 100, rfl⟩
abbrev main_v68 : Ref sig .tc := ⟨.hbm, 101, rfl⟩
abbrev main_v69 : Ref sig .tc := ⟨.hbm, 102, rfl⟩
abbrev main_c_18 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_19 : Ref sig .tc := ⟨.hbm, 110, rfl⟩
abbrev main_v76 : Ref sig .tc := ⟨.hbm, 111, rfl⟩
abbrev main_v77 : Ref sig .tc := ⟨.hbm, 112, rfl⟩
abbrev main_c_20 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_21 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_call3_cst : Ref sig .tc := ⟨.hbm, 129, rfl⟩
abbrev main_call3_v0 : Ref sig .tc := ⟨.hbm, 130, rfl⟩
abbrev main_v92 : Ref sig .tc := ⟨.hbm, 131, rfl⟩
abbrev main_cst_22 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_23 : Ref sig .tc := ⟨.hbm, 136, rfl⟩
abbrev main_v96 : Ref sig .tc := ⟨.hbm, 137, rfl⟩
abbrev main_cst_24 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_25 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.KernelRun.lean ====
/-
  The idealized kernel's run with its RESULT named.  @main is eleven segments: seven stretches of host
  operations and four kernel launches.  Each stretch turns the device's buffer contents into the contents
  "after" its operations, each launch replaces its arrays by what its write-backs leave, and so the contents
  at the return are a fold of eleven steps from the launch memory (`W11`).  The frame statement keeps of that
  fold only the argument arrays; here the same run is read once more, keeping also the result array: every
  weakly fair execution terminates, nothing faults, the result buffer ends at the fold's value there and the
  arguments end as launched.
-/
import proofs.«145758_j64321430225634_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the value the eleven-step fold gives it and the arguments unchanged. -/
theorem run_result : θ_run defs (onTc (τ := τ) (main (F := F))) ⟨m, fun _ => 0, ρ⟩ (fun r => ∀ c : Dev nD,
      r.2.mem ((c.tc : Thread nD τ).loc main_v79) = W11 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v79 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Fold

end
-- ==== Proof.GraphK.lean ====
/-
  The graph side of the two-layer network, as pure functions of arrays: what both programs do with the edge list
  outside the dense stages.  An edge list `e : i32[2, E]` gives `E + n` directed edges — row 0 the sources, row 1 the targets,
  then one self loop per node.  `degree` counts the edges into each node, `invSqrtDegree` is `deg^(-1/2)` where the degree is
  positive and zero elsewhere, `edgeNorm` is the product of that number at an edge's two ends, `aggregate` sums into each
  node the features of its in-neighbours weighted by `edgeNorm`, and `meanPool` averages node features over each graph
  of the batch.  Indices are normalised the way array indexing does it (a negative index has `n` added) before a row is
  fetched; rows are accumulated at the raw target index.
-/
import proofs.«145758_j64321430225634_1_alg».proof.KernelIdeal
import proofs.«145758_j64321430225634_1_alg».proof.Proof.Gen.KernelIdeal

noncomputable section

open Idealize.ShloMosaic Idealize.ShloMosaic.TcCoe Idealize.SL.Sem

namespace Cert.KernelIdeal.Graph

open Cert.KernelIdeal Cert.KernelIdeal.Facts₀ Cert.KernelIdeal.Facts

variable {F : FTy → Type} [FloatOps F]

/-- Integer, float and boolean arrays of a shape, at the instance `F`. -/
abbrev I32 (F : FTy → Type) (s : Shape) : Type := (⟨s, .i32⟩ : BufTy).Contents (Elt F)
abbrev F32 (F : FTy → Type) (s : Shape) : Type := (⟨s, .f32⟩ : BufTy).Contents (Elt F)
abbrev I1 (F : FTy → Type) (s : Shape) : Type := (⟨s, .i1⟩ : BufTy).Contents (Elt F)

/-- Row 0 of the edge list, then the nodes `0 … n - 1`: every edge's source, the self loops last. -/
def sources (e : I32 F S2x3200000) : I32 F S3300000 :=
  concatenate S3300000 0 [⟨S3200000, shapeCast S3200000 (extractStridedSlice S1x3200000 ![0, 0] e slices_S2x3200000_S1x3200000_0_0) shapeCasts_S1x3200000_S3200000⟩, ⟨S100000, (iotaInDim S100000 32 0 : I32 F S100000)⟩] concatenates_S3200000_S100000_S3300000_d0

/-- Row 1 of the edge list, then the nodes `0 … n - 1`: every edge's target. -/
def targets (e : I32 F S2x3200000) : I32 F S3300000 :=
  concatenate S3300000 0 [⟨S3200000, shapeCast S3200000 (extractStridedSlice S1x3200000 ![1, 0] e slices_S2x3200000_S1x3200000_1_0) shapeCasts_S1x3200000_S3200000⟩, ⟨S100000, (iotaInDim S100000 32 0 : I32 F S100000)⟩] concatenates_S3200000_S100000_S3300000_d0

/-- A vector of node indices made ready to fetch rows with: `v + n` where `v < 0`, as a column. -/
def wrap (v : I32 F S3300000) : I32 F S3300000x1 :=
  broadcastInDim S3300000x1 ![0] bcast_S3300000_S3300000x1_0
    ((select : I1 F S3300000 → I32 F S3300000 → I32 F S3300000 → I32 F S3300000)
      ((cmpi .slt : I32 F S3300000 → I32 F S3300000 → I1 F S3300000) v (broadcastInDim S3300000 ![] bcast_S_S3300000 (constantI S_ 32 0#32 : I32 F S_)))
      ((addi : I32 F S3300000 → I32 F S3300000 → I32 F S3300000) v (broadcastInDim S3300000 ![] bcast_S_S3300000 (constantI S_ 32 100000#32 : I32 F S_)))
      v)

/-- The number of edges into each node: ones added up at the targets. -/
def degree (dst : I32 F S3300000) : F32 F S100000 :=
  Host.scatterAdd (F := F) scatter_S100000_S3300000x1_S3300000_n_0_0_1
    (broadcastInDim S100000 ![] bcast_S_S100000 (constant (F := F) S_ .f32 0x00000000#32))
    (broadcastInDim S3300000x1 ![0] bcast_S3300000_S3300000x1_0 dst)
    (broadcastInDim S3300000 ![] bcast_S_S3300000 (constant (F := F) S_ .f32 0x3F800000#32))

/-- `deg^(-1/2)` where the degree is positive (the degree first raised to a tiny floor), zero elsewhere. -/
def invSqrtDegree (dst : I32 F S3300000) : F32 F S100000 :=
  (select : I1 F S100000 → F32 F S100000 → F32 F S100000 → F32 F S100000)
    ((cmpf .ogt : F32 F S100000 → F32 F S100000 → I1 F S100000) (degree dst) (broadcastInDim S100000 ![] bcast_S_S100000 (constant (F := F) S_ .f32 0x00000000#32)))
    ((Host.rsqrt : F32 F S100000 → F32 F S100000) ((maximumf : F32 F S100000 → F32 F S100000 → F32 F S100000) (degree dst) (broadcastInDim S100000 ![] bcast_S_S100000 (constant (F := F) S_ .f32 0x2B8CBCCC#32))))
    (broadcastInDim S100000 ![] bcast_S_S100000 ((id : F32 F S_ → F32 F S_) (constant (F := F) S_ .f32 0x00000000#32)))

/-- The weight of an edge: `deg^(-1/2)` at its source times `deg^(-1/2)` at its target. -/
def edgeNorm (src dst : I32 F S3300000) : F32 F S3300000 :=
  (mulf : F32 F S3300000 → F32 F S3300000 → F32 F S3300000)
    (Host.gather gather_S100000_S3300000x1_S3300000_n_0_n_n_0_1_1 (invSqrtDegree dst) (wrap src))
    (Host.gather gather_S100000_S3300000x1_S3300000_n_0_n_n_0_1_1 (invSqrtDegree dst) (wrap dst))

/-- Into each node, the sum over its incoming edges of the source's feature row times the edge's weight. -/
def aggregate (src dst : I32 F S3300000) (nrm : F32 F S3300000) (h : F32 F S100000x64) : F32 F S100000x64 :=
  Host.scatterAdd (F := F) scatter_S100000x64_S3300000x1_S3300000x64_1_0_0_1
    (broadcastInDim S100000x64 ![] bcast_S_S100000x64 (constant (F := F) S_ .f32 0x00000000#32))
    (broadcastInDim S3300000x1 ![0] bcast_S3300000_S3300000x1_0 dst)
    ((mulf : F32 F S3300000x64 → F32 F S3300000x64 → F32 F S3300000x64)
      (Host.gather gather_S100000x64_S3300000x1_S3300000x64_1_0_n_n_0_1_164 h (wrap src))
      (broadcastInDim S3300000x64 ![0, 1] bcast_S3300000x1_S3300000x64_0_1 (broadcastInDim S3300000x1 ![0] bcast_S3300000_S3300000x1_0 nrm)))

/-- Per graph of the batch: the sum of its nodes' feature rows over the number of its nodes (at least one). -/
def meanPool (batch : I32 F S100000) (h : F32 F S100000x64) : F32 F S512x64 :=
  (Host.divf : F32 F S512x64 → F32 F S512x64 → F32 F S512x64)
    (Host.scatterAdd (F := F) scatter_S512x64_S100000x1_S100000x64_1_0_0_1
      (broadcastInDim S512x64 ![] bcast_S_S512x64 (constant (F := F) S_ .f32 0x00000000#32))
      (broadcastInDim S100000x1 ![0] bcast_S100000_S100000x1_0 batch) h)
    (broadcastInDim S512x64 ![0, 1] bcast_S512x1_S512x64_0_1 (broadcastInDim S512x1 ![0] bcast_S512_S512x1_0
      ((maximumf : F32 F S512 → F32 F S512 → F32 F S512)
        (Host.scatterAdd (F := F) scatter_S512_S100000x1_S100000_n_0_0_1
          (broadcastInDim S512 ![] bcast_S_S512 (constant (F := F) S_ .f32 0x00000000#32))
          (broadcastInDim S100000x1 ![0] bcast_S100000_S100000x1_0 batch)
          (broadcastInDim S100000 ![] bcast_S_S100000 (constant (F := F) S_ .f32 0x3F800000#32)))
        (broadcastInDim S512 ![] bcast_S_S512 (constant (F := F) S_ .f32 0x3F800000#32)))))

end Cert.KernelIdeal.Graph

end
-- ==== Proof.HostEdges.lean ====
/-
  The host operations before the first launch, read for the edge endpoints: from any contents, the buffers holding every
  edge's source and target end as the edge list's two rows, each followed by the self loops.
-/
import proofs.«145758_j64321430225634_1_alg».proof.Proof.Gen.KernelIdeal.Launch
import proofs.«145758_j64321430225634_1_alg».proof.Proof.GraphK
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold.Stages

open Cert.KernelIdeal Cert.KernelIdeal.Gen Cert.KernelIdeal.Graph

variable {F : FTy → Type} [FloatOps F]

/-! ## The edge endpoints -/

theorem pre_v3 (Vin : Valuation τ sig (Elt F)) :
    StableHlo.after (hostOps0_2 (F := F)) (StableHlo.after (hostOps0_1 (F := F)) (StableHlo.after (hostOps0 (F := F)) Vin)) (Proc.devRef .tc main_v3) = sources (Vin (Proc.devRef .tc main_arg5)) := by
  simp only [hostOps0, hostOps0_1, hostOps0_2]
  after_results
  rfl

theorem pre_v6 (Vin : Valuation τ sig (Elt F)) :
    StableHlo.after (hostOps0_2 (F := F)) (StableHlo.after (hostOps0_1 (F := F)) (StableHlo.after (hostOps0 (F := F)) Vin)) (Proc.devRef .tc main_v6) = targets (Vin (Proc.devRef .tc main_arg5)) := by
  simp only [hostOps0, hostOps0_1, hostOps0_2]
  after_results
  rfl

end Cert.KernelIdeal.Fold.Stages

end
-- ==== Proof.HostWeights.lean ====
/-
  The host operations before the first launch, read for the edge weights: from any contents, the weights' buffer ends at
  `deg^(-1/2)[source] · deg^(-1/2)[target]` of the endpoints, the degree counted over the targets.
-/
import proofs.«145758_j64321430225634_1_alg».proof.Proof.Gen.KernelIdeal.Launch
import proofs.«145758_j64321430225634_1_alg».proof.Proof.GraphK
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold.Stages

open Cert.KernelIdeal Cert.KernelIdeal.Gen Cert.KernelIdeal.Graph

variable {F : FTy → Type} [FloatOps F]

/-! ## The edge weights -/

set_option maxHeartbeats 4000000 in
theorem pre_v31 (Vin : Valuation τ sig (Elt F)) :
    StableHlo.after (hostOps0_2 (F := F)) (StableHlo.after (hostOps0_1 (F := F)) (StableHlo.after (hostOps0 (F := F)) Vin)) (Proc.devRef .tc main_v31) = edgeNorm (sources (Vin (Proc.devRef .tc main_arg5))) (targets (Vin (Proc.devRef .tc main_arg5))) := by
  simp only [hostOps0, hostOps0_1, hostOps0_2]
  after_results
  rfl

end Cert.KernelIdeal.Fold.Stages

end
-- ==== Proof.HostOperands.lean ====
/-
  The host operations before the first launch, read for the first product's operands — the two arguments in the narrow
  format — and for the arguments that only later code reads, which they leave alone.
-/
import proofs.«145758_j64321430225634_1_alg».proof.Proof.Gen.KernelIdeal.Launch
import proofs.«145758_j64321430225634_1_alg».proof.Proof.GraphK
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold.Stages

open Cert.KernelIdeal Cert.KernelIdeal.Gen Cert.KernelIdeal.Graph

variable {F : FTy → Type} [FloatOps F]

/-! ## The first product's operands, and what is kept -/

theorem pre_v32 (Vin : Valuation τ sig (Elt F)) :
    StableHlo.after (hostOps0_2 (F := F)) (StableHlo.after (hostOps0_1 (F := F)) (StableHlo.after (hostOps0 (F := F)) Vin)) (Proc.devRef .tc main_v32) = truncf .bf16 (Vin (Proc.devRef .tc main_arg0) : F32 F S100000x128) bitsLt_bf16_f32 := by
  simp only [hostOps0, hostOps0_1, hostOps0_2]
  after_results_simp

theorem pre_v33 (Vin : Valuation τ sig (Elt F)) :
    StableHlo.after (hostOps0_2 (F := F)) (StableHlo.after (hostOps0_1 (F := F)) (StableHlo.after (hostOps0 (F := F)) Vin)) (Proc.devRef .tc main_v33) = truncf .bf16 (Vin (Proc.devRef .tc main_arg1) : F32 F S128x64) bitsLt_bf16_f32 := by
  simp only [hostOps0, hostOps0_1, hostOps0_2]
  after_results_simp

theorem pre_keep_arg2 (Vin : Valuation τ sig (Elt F)) :
    StableHlo.after (hostOps0_2 (F := F)) (StableHlo.after (hostOps0_1 (F := F)) (StableHlo.after (hostOps0 (F := F)) Vin)) (Proc.devRef .tc main_arg2) = Vin (Proc.devRef .tc main_arg2) := by
  simp only [hostOps0, hostOps0_1, hostOps0_2]
  after_results_simp

theorem pre_keep_arg3 (Vin : Valuation τ sig (Elt F)) :
    StableHlo.after (hostOps0_2 (F := F)) (StableHlo.after (hostOps0_1 (F := F)) (StableHlo.after (hostOps0 (F := F)) Vin)) (Proc.devRef .tc main_arg3) = Vin (Proc.devRef .tc main_arg3) := by
  simp only [hostOps0, hostOps0_1, hostOps0_2]
  after_results_simp

theorem pre_keep_arg4 (Vin : Valuation τ sig (Elt F)) :
    StableHlo.after (hostOps0_2 (F := F)) (StableHlo.after (hostOps0_1 (F := F)) (StableHlo.after (hostOps0 (F := F)) Vin)) (Proc.devRef .tc main_arg4) = Vin (Proc.devRef .tc main_arg4) := by
  simp only [hostOps0, hostOps0_1, hostOps0_2]
  after_results_simp

theorem pre_keep_arg6 (Vin : Valuation τ sig (Elt F)) :
    StableHlo.after (hostOps0_2 (F := F)) (StableHlo.after (hostOps0_1 (F := F)) (StableHlo.after (hostOps0 (F := F)) Vin)) (Proc.devRef .tc main_arg6) = Vin (Proc.devRef .tc main_arg6) := by
  simp only [hostOps0, hostOps0_1, hostOps0_2]
  after_results_simp

end Cert.KernelIdeal.Fold.Stages

end
-- ==== Proof.HostStages.lean ====
/-
  The host stretches of the idealized kernel's @main after the first launch, read as functions.  `StableHlo.after ops V` is what
  the device's buffers hold once the operations `ops` have run from contents `V`.  For each stretch, and for any contents `V`
  it starts from: what it leaves in the buffers later code reads, as a graph operation (GraphK.lean) of what `V` holds in the
  buffers it reads — and that it leaves alone the buffers that are only read later.
-/
import proofs.«145758_j64321430225634_1_alg».proof.Proof.Gen.KernelIdeal.Launch
import proofs.«145758_j64321430225634_1_alg».proof.Proof.GraphK
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold.Stages

open Cert.KernelIdeal Cert.KernelIdeal.Gen Cert.KernelIdeal.Graph

variable {F : FTy → Type} [FloatOps F]

/-! ## Between the first and the second launch: the first aggregation, and the bias as one row -/

theorem mid1_v47 (Vin : Valuation τ sig (Elt F)) :
    StableHlo.after (hostOps1 (F := F)) Vin (Proc.devRef .tc main_v47)
      = aggregate (Vin (Proc.devRef .tc main_v3)) (Vin (Proc.devRef .tc main_v6)) (Vin (Proc.devRef .tc main_v31)) (Vin (Proc.devRef .tc main_v34)) := by
  simp only [hostOps1]
  after_results_simp
  rfl

theorem mid1_v48 (Vin : Valuation τ sig (Elt F)) :
    StableHlo.after (hostOps1 (F := F)) Vin (Proc.devRef .tc main_v48) = shapeCast S1x64 (Vin (Proc.devRef .tc main_arg2) : F32 F S64) shapeCasts_S64_S1x64 := by
  simp only [hostOps1]
  after_results_simp
  rfl

theorem mid1_keep_v3 (Vin : Valuation τ sig (Elt F)) :
    StableHlo.after (hostOps1 (F := F)) Vin (Proc.devRef .tc main_v3) = Vin (Proc.devRef .tc main_v3) := by
  simp only [hostOps1]
  after_results_simp

theorem mid1_keep_v6 (Vin : Valuation τ sig (Elt F)) :
    StableHlo.after (hostOps1 (F := F)) Vin (Proc.devRef .tc main_v6) = Vin (Proc.devRef .tc main_v6) := by
  simp only [hostOps1]
  after_results_simp

theorem mid1_keep_v31 (Vin : Valuation τ sig (Elt F)) :
    StableHlo.after (hostOps1 (F := F)) Vin (Proc.devRef .tc main_v31) = Vin (Proc.devRef .tc main_v31) := by
  simp only [hostOps1]
  after_results_simp

theorem mid1_keep_arg3 (Vin : Valuation τ sig (Elt F)) :
    StableHlo.after (hostOps1 (F := F)) Vin (Proc.devRef .tc main_arg3) = Vin (Proc.devRef .tc main_arg3) := by
  simp only [hostOps1]
  after_results_simp

theorem mid1_keep_arg4 (Vin : Valuation τ sig (Elt F)) :
    StableHlo.after (hostOps1 (F := F)) Vin (Proc.devRef .tc main_arg4) = Vin (Proc.devRef .tc main_arg4) := by
  simp only [hostOps1]
  after_results_simp

theorem mid1_keep_arg6 (Vin : Valuation τ sig (Elt F)) :
    StableHlo.after (hostOps1 (F := F)) Vin (Proc.devRef .tc main_arg6) = Vin (Proc.devRef .tc main_arg6) := by
  simp only [hostOps1]
  after_results_simp

/-! ## Between the second and the third launch: the two operands in the narrow format -/

theorem mid2_v50 (Vin : Valuation τ sig (Elt F)) :
    StableHlo.after (hostOps2 (F := F)) Vin (Proc.devRef .tc main_v50) = truncf .bf16 (Vin (Proc.devRef .tc main_v49) : F32 F S100000x64) bitsLt_bf16_f32 := by
  simp only [hostOps2]
  after_results_simp

theorem mid2_v51 (Vin : Valuation τ sig (Elt F)) :
    StableHlo.after (hostOps2 (F := F)) Vin (Proc.devRef .tc main_v51) = truncf .bf16 (Vin (Proc.devRef .tc main_arg3) : F32 F S64x64) bitsLt_bf16_f32 := by
  simp only [hostOps2]
  after_results_simp

theorem mid2_keep_v3 (Vin : Valuation τ sig (Elt F)) :
    StableHlo.after (hostOps2 (F := F)) Vin (Proc.devRef .tc main_v3) = Vin (Proc.devRef .tc main_v3) := by
  simp only [hostOps2]
  after_results_simp

theorem mid2_keep_v6 (Vin : Valuation τ sig (Elt F)) :
    StableHlo.after (hostOps2 (F := F)) Vin (Proc.devRef .tc main_v6) = Vin (Proc.devRef .tc main_v6) := by
  simp only [hostOps2]
  after_results_simp

theorem mid2_keep_v31 (Vin : Valuation τ sig (Elt F)) :
    StableHlo.after (hostOps2 (F := F)) Vin (Proc.devRef .tc main_v31) = Vin (Proc.devRef .tc main_v31) := by
  simp only [hostOps2]
  after_results_simp

theorem mid2_keep_arg4 (Vin : Valuation τ sig (Elt F)) :
    StableHlo.after (hostOps2 (F := F)) Vin (Proc.devRef .tc main_arg4) = Vin (Proc.devRef .tc main_arg4) := by
  simp only [hostOps2]
  after_results_simp

theorem mid2_keep_arg6 (Vin : Valuation τ sig (Elt F)) :
    StableHlo.after (hostOps2 (F := F)) Vin (Proc.devRef .tc main_arg6) = Vin (Proc.devRef .tc main_arg6) := by
  simp only [hostOps2]
  after_results_simp

/-! ## Between the third and the fourth launch: the second aggregation, and the bias as one row -/

theorem mid3_v65 (Vin : Valuation τ sig (Elt F)) :
    StableHlo.after (hostOps3 (F := F)) Vin (Proc.devRef .tc main_v65)
      = aggregate (Vin (Proc.devRef .tc main_v3)) (Vin (Proc.devRef .tc main_v6)) (Vin (Proc.devRef .tc main_v31)) (Vin (Proc.devRef .tc main_v52)) := by
  simp only [hostOps3]
  after_results_simp
  rfl

theorem mid3_v66 (Vin : Valuation τ sig (Elt F)) :
    StableHlo.after (hostOps3 (F := F)) Vin (Proc.devRef .tc main_v66) = shapeCast S1x64 (Vin (Proc.devRef .tc main_arg4) : F32 F S64) shapeCasts_S64_S1x64 := by
  simp only [hostOps3]
  after_results_simp
  rfl

theorem mid3_keep_arg6 (Vin : Valuation τ sig (Elt F)) :
    StableHlo.after (hostOps3 (F := F)) Vin (Proc.devRef .tc main_arg6) = Vin (Proc.devRef .tc main_arg6) := by
  simp only [hostOps3]
  after_results_simp

/-! ## After the last launch: the mean over each graph of the batch -/

theorem post_v79 (Vin : Valuation τ sig (Elt F)) :
    StableHlo.after (hostOps4 (F := F)) Vin (Proc.devRef .tc main_v79) = meanPool (Vin (Proc.devRef .tc main_arg6)) (Vin (Proc.devRef .tc main_v67)) := by
  simp only [hostOps4]
  after_results_simp
  rfl

end Cert.KernelIdeal.Fold.Stages

end
-- ==== Proof.ProductA.lean ====
/-
  The first launch: `x · W1`, ten thousand rows at a time.  Each of the ten grid points multiplies its block of rows of
  the node features by the whole weight matrix into a zero accumulator and writes the block of the product back; at the
  extended reals that is the block of the one whole-array product, and the ten blocks tile the result.
-/
import proofs.«145758_j64321430225634_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Fold.ProductA

open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-! ## The whole-array product -/

/-- Row `i 0` of the left operand at contraction position `k`. -/
abbrev lrow (i : S100000x64.Idx) (k : Fin 128) : S100000x128.Idx := fun a => match a with
  | ⟨0, _⟩ => ⟨(i 0).val, (i 0).isLt⟩
  | ⟨1, _⟩ => ⟨k.val, k.isLt⟩
/-- Column `i 1` of the right operand at contraction position `k`. -/
abbrev rcol (i : S100000x64.Idx) (k : Fin 128) : S128x64.Idx := fun a => match a with
  | ⟨0, _⟩ => ⟨k.val, k.isLt⟩
  | ⟨1, _⟩ => ⟨(i 1).val, (i 1).isLt⟩

/-- The matrix product of the two whole arrays, entry by entry: `(x · w)[r, q] = ∑ₖ x[r, k] · w[k, q]`. -/
def prod (x : S100000x128.Idx → EReal) (w : S128x64.Idx → EReal) : S100000x64.Idx → EReal :=
  fun i => ∑ k : Fin 128, x (lrow i k) * w (rcol i k)

/-! ## One block's product -/

/-- The same two index functions inside a block of ten thousand rows. -/
abbrev brow (j : S10000x64.Idx) (k : Fin 128) : S10000x128.Idx := fun a => match a with
  | ⟨0, _⟩ => ⟨(j 0).val, (j 0).isLt⟩
  | ⟨1, _⟩ => ⟨k.val, k.isLt⟩
abbrev bcol (j : S10000x64.Idx) (k : Fin 128) : S128x64.Idx := fun a => match a with
  | ⟨0, _⟩ => ⟨k.val, k.isLt⟩
  | ⟨1, _⟩ => ⟨(j 1).val, (j 1).isLt⟩

theorem lhs_0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem rhs_0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem rhs_1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's one store holds, at `[r, q]` of the block, the sum over `k` of the left block's `[r, k]` times the right
    operand's `[k, q]`: a product accumulated into zero is the plain sum, and a change of float format is the identity
    on the extended reals. -/
theorem pay_apply (x0 : FVec Ideal S10000x128 .bf16) (x1 : FVec Ideal S128x64 .bf16) (j : S10000x64.Idx) :
    (k0_pay1 (F := Ideal) x0 x1 j : EReal) = ∑ k : Fin 128, ((x0 (brow j k) : EReal) * (x1 (bcol j k) : EReal)) := by
  unfold k0_pay1
  simp only [matmul, shapeCast_self]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = brow j k := funext fun a => Fin.ext (by
    match a with
    | ⟨0, _⟩ => exact lhs_0 _ _
    | ⟨1, _⟩ => exact (lhs_1 _ _).trans hk)
  have er : dot_S10000x128_S128x64_S10000x64_1_0_0_1_n_n.rhsIdx j ((ValueIdx.contrEquiv1 dot_S10000x128_S128x64_S10000x64_1_0_0_1_n_n 128 rfl rfl).symm k) = bcol j k := funext fun a => Fin.ext (by
    match a with
    | ⟨0, _⟩ => exact (rhs_0 _ _).trans hk
    | ⟨1, _⟩ => exact rhs_1 _ _)
  rw [el, er]

/-! ## From blocks to the array -/

/-- The index maps over the grid's ten points: point `t` takes rows `10000 t … 10000 t + 9999` of the left operand
    and of the result, and the whole right operand. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of ten thousand rows is some point's. -/
theorem idx_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the whole-array product of the two operands as the launch finds them. -/
theorem flushed_eq (c : Dev nD) (t : Fin cfg0.N) :
    (dat0 V c).flushed 2 t = ((cfg0.win 2).blk t).view.read (Elt Ideal) (prod (V c main_v32) (V c main_v33)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  obtain ⟨e0, e1, e2, e3, e4, e5⟩ := idx_facts t
  funext j
  show k0_pay1 (iblk0 V c 0 t) (iblk0 V c 1 t) j = prod (V c main_v32) (V c main_v33) (((cfg0.win 2).blk t).view.emb j)
  refine (pay_apply (iblk0 V c 0 t) (iblk0 V c 1 t) j).trans ?_
  unfold prod
  refine Finset.sum_congr rfl fun k _ => ?_
  have h0 : ((cfg0.win 0).blk t).view.emb (brow j k) = lrow (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (bcol j k) = rcol (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  have hx : iblk0 V c 0 t (brow j k) = V c main_v32 (lrow (((cfg0.win 2).blk t).view.emb j) k) := by
    unfold iblk0
    rw [View.read_apply]
    exact congrArg (V c main_v32) h0
  have hw : iblk0 V c 1 t (bcol j k) = V c main_v33 (rcol (((cfg0.win 2).blk t).view.emb j) k) := by
    unfold iblk0
    rw [View.read_apply]
    exact congrArg (V c main_v33) h1
  rw [hx, hw]

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- The ten blocks tile the result array: row `r` lies in the block of point `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the launch is the whole-array product of the two operands as the launch finds them. -/
theorem final (c : Dev nD) : (dat0 V c).arrAt 2 cfg0.N = prod (V c main_v32) (V c main_v33) :=
  (dat0 V c).arrAt_eq_of_cover 2 (prod (V c main_v32) (V c main_v33)) (fun t _ => flushed_eq V c t) cover

end Cert.KernelIdeal.Fold.ProductA

end
-- ==== Proof.BiasA.lean ====
/-
  The second launch: the first layer's bias and rectifier, ten thousand rows at a time.  Each grid point adds the one bias
  row to its block of the aggregated features and takes the maximum with zero; the ten blocks tile the result.
-/
import proofs.«145758_j64321430225634_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Fold.BiasA

open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-! ## The whole-array function -/

/-- The one row of the bias at the column of `i`. -/
abbrev biasAt (i : S100000x64.Idx) : S1x64.Idx := fun a => match a with
  | ⟨0, _⟩ => ⟨0, Nat.zero_lt_one⟩
  | ⟨1, _⟩ => ⟨(i 1).val, (i 1).isLt⟩

/-- Entry by entry: the bias of the entry's column added, then the maximum with the float zero,
    `max (a[r, q] + b[0, q]) 0`. The zero is kept as its word: both programs spell the same one. -/
def biasRelu (a : S100000x64.Idx → EReal) (b : S1x64.Idx → EReal) : S100000x64.Idx → EReal :=
  fun i => max (a i + b (biasAt i)) (Ideal.ofBits .f32 0x00000000#32)

/-! ## One block -/

abbrev biasIn (j : S10000x64.Idx) : S1x64.Idx := fun a => match a with
  | ⟨0, _⟩ => ⟨0, Nat.zero_lt_one⟩
  | ⟨1, _⟩ => ⟨(j 1).val, (j 1).isLt⟩

/-- The body's one store holds, at `[r, q]` of the block, `max (x[r, q] + b[0, q]) 0`: the bias row is broadcast
    over the block's rows, the sum and the maximum are pointwise. -/
theorem pay_apply (b0 : FVec Ideal S1x64 .f32) (x : FVec Ideal S10000x64 .f32) (j : S10000x64.Idx) :
    (k1_pay1 (F := Ideal) b0 x j : EReal) = max ((x j : EReal) + (b0 (biasIn j) : EReal)) (Ideal.ofBits .f32 0x00000000#32) := by
  unfold k1_pay1
  simp only [shapeCast_self]
  have hb : broadcastTo S10000x64 b0 broadcasts_S1x64_S10000x64 j = b0 (biasIn j) :=
    broadcastTo_apply b0 broadcasts_S1x64_S10000x64 j (biasIn j) (fun a => by
      match a with
      | ⟨0, _⟩ => rfl
      | ⟨1, _⟩ => rfl)
  show max ((x j : EReal) + (broadcastTo S10000x64 b0 broadcasts_S1x64_S10000x64 j : EReal)) (Ideal.ofBits .f32 0x00000000#32) = _
  rw [hb]

/-! ## From blocks to the array -/

/-- The index maps over the grid's ten points: point `t` takes rows `10000 t … 10000 t + 9999` of the operand and of the
    result, and the one bias row. -/
theorem idx_facts : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block of ten thousand rows is some point's. -/
theorem idx_onto : ∀ q : Fin 10, ∃ t : Fin cfg1.N, win1_2.index t = ![q.val, 0] :=
  (by decide +kernel : ∀ q : Fin 10, ∃ t : Fin grid1.N, win1_2.index t = ![q.val, 0])

/-- What point `t` writes back is block `t` of the whole-array function of the two operands as the launch finds them. -/
theorem flushed_eq (c : Dev nD) (t : Fin cfg1.N) :
    (dat1 V c).flushed 2 t = ((cfg1.win 2).blk t).view.read (Elt Ideal) (biasRelu (V c main_v47) (V c main_v48)) := by
  show (cfg1.win 2).cut (grid1.coords t) ((dat1 V c).after 2 t) = _
  rw [after1_2]
  unfold out1_2
  rw [View.canon_unit_zero origin]
  simp only [View.ld_unit_zero (S := S10000x64) origin, View.ld_unit_zero (S := S1x64) origin]
  obtain ⟨e0, e1, e2, e3, e4, e5⟩ := idx_facts t
  funext j
  show k1_pay1 (iblk1 V c 1 t) (iblk1 V c 0 t) j = biasRelu (V c main_v47) (V c main_v48) (((cfg1.win 2).blk t).view.emb j)
  refine (pay_apply (iblk1 V c 1 t) (iblk1 V c 0 t) j).trans ?_
  unfold biasRelu
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (biasIn j) = biasAt (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  have hx : iblk1 V c 0 t j = V c main_v47 (((cfg1.win 2).blk t).view.emb j) := by
    unfold iblk1
    rw [View.read_apply]
    exact congrArg (V c main_v47) h0
  have hb : iblk1 V c 1 t (biasIn j) = V c main_v48 (biasAt (((cfg1.win 2).blk t).view.emb j)) := by
    unfold iblk1
    rw [View.read_apply]
    exact congrArg (V c main_v48) h1
  rw [hx, hb]

/-- An index of the result array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- The ten blocks tile the result array: row `r` lies in the block of point `r / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the launch is the whole-array function of the two operands as the launch finds them. -/
theorem final (c : Dev nD) : (dat1 V c).arrAt 2 cfg1.N = biasRelu (V c main_v47) (V c main_v48) :=
  (dat1 V c).arrAt_eq_of_cover 2 (biasRelu (V c main_v47) (V c main_v48)) (fun t _ => flushed_eq V c t) cover

end Cert.KernelIdeal.Fold.BiasA

end
-- ==== Proof.ProductB.lean ====
/-
  The third launch: `h · W2`, ten thousand rows at a time.  Each of the ten grid points multiplies its block of rows of
  the first layer's output by the whole second weight matrix into a zero accumulator and writes the block of the product back; at the
  extended reals that is the block of the one whole-array product, and the ten blocks tile the result.
-/
import proofs.«145758_j64321430225634_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Fold.ProductB

open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-! ## The whole-array product -/

/-- Row `i 0` of the left operand at contraction position `k`. -/
abbrev lrow (i : S100000x64.Idx) (k : Fin 64) : S100000x64.Idx := fun a => match a with
  | ⟨0, _⟩ => ⟨(i 0).val, (i 0).isLt⟩
  | ⟨1, _⟩ => ⟨k.val, k.isLt⟩
/-- Column `i 1` of the right operand at contraction position `k`. -/
abbrev rcol (i : S100000x64.Idx) (k : Fin 64) : S64x64.Idx := fun a => match a with
  | ⟨0, _⟩ => ⟨k.val, k.isLt⟩
  | ⟨1, _⟩ => ⟨(i 1).val, (i 1).isLt⟩

/-- The matrix product of the two whole arrays, entry by entry: `(x · w)[r, q] = ∑ₖ x[r, k] · w[k, q]`. -/
def prod (x : S100000x64.Idx → EReal) (w : S64x64.Idx → EReal) : S100000x64.Idx → EReal :=
  fun i => ∑ k : Fin 64, x (lrow i k) * w (rcol i k)

/-! ## One block's product -/

/-- The same two index functions inside a block of ten thousand rows. -/
abbrev brow (j : S10000x64.Idx) (k : Fin 64) : S10000x64.Idx := fun a => match a with
  | ⟨0, _⟩ => ⟨(j 0).val, (j 0).isLt⟩
  | ⟨1, _⟩ => ⟨k.val, k.isLt⟩
abbrev bcol (j : S10000x64.Idx) (k : Fin 64) : S64x64.Idx := fun a => match a with
  | ⟨0, _⟩ => ⟨k.val, k.isLt⟩
  | ⟨1, _⟩ => ⟨(j 1).val, (j 1).isLt⟩

theorem lhs_0 (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
theorem rhs_0 (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
theorem rhs_1 (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's one store holds, at `[r, q]` of the block, the sum over `k` of the left block's `[r, k]` times the right
    operand's `[k, q]`: a product accumulated into zero is the plain sum, and a change of float format is the identity
    on the extended reals. -/
theorem pay_apply (x0 : FVec Ideal S10000x64 .bf16) (x1 : FVec Ideal S64x64 .bf16) (j : S10000x64.Idx) :
    (k2_pay1 (F := Ideal) x0 x1 j : EReal) = ∑ k : Fin 64, ((x0 (brow j k) : EReal) * (x1 (bcol j k) : EReal)) := by
  unfold k2_pay1
  simp only [matmul, shapeCast_self]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = brow j k := funext fun a => Fin.ext (by
    match a with
    | ⟨0, _⟩ => exact lhs_0 _ _
    | ⟨1, _⟩ => exact (lhs_1 _ _).trans hk)
  have er : dot_S10000x64_S64x64_S10000x64_1_0_0_1_n_n.rhsIdx j ((ValueIdx.contrEquiv1 dot_S10000x64_S64x64_S10000x64_1_0_0_1_n_n 64 rfl rfl).symm k) = bcol j k := funext fun a => Fin.ext (by
    match a with
    | ⟨0, _⟩ => exact (rhs_0 _ _).trans hk
    | ⟨1, _⟩ => exact rhs_1 _ _)
  rw [el, er]

/-! ## From blocks to the array -/

/-- The index maps over the grid's ten points: point `t` takes rows `10000 t … 10000 t + 9999` of the left operand
    and of the result, and the whole right operand. -/
theorem idx_facts : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block of ten thousand rows is some point's. -/
theorem idx_onto : ∀ q : Fin 10, ∃ t : Fin cfg2.N, win2_2.index t = ![q.val, 0] :=
  (by decide +kernel : ∀ q : Fin 10, ∃ t : Fin grid2.N, win2_2.index t = ![q.val, 0])

/-- What point `t` writes back is block `t` of the whole-array product of the two operands as the launch finds them. -/
theorem flushed_eq (c : Dev nD) (t : Fin cfg2.N) :
    (dat2 V c).flushed 2 t = ((cfg2.win 2).blk t).view.read (Elt Ideal) (prod (V c main_v50) (V c main_v51)) := by
  show (cfg2.win 2).cut (grid2.coords t) ((dat2 V c).after 2 t) = _
  rw [after2_2]
  unfold out2_2
  rw [View.canon_unit_zero origin]
  simp only [View.ld_unit_zero (S := S10000x64) origin, View.ld_unit_zero (S := S64x64) origin]
  obtain ⟨e0, e1, e2, e3, e4, e5⟩ := idx_facts t
  funext j
  show k2_pay1 (iblk2 V c 0 t) (iblk2 V c 1 t) j = prod (V c main_v50) (V c main_v51) (((cfg2.win 2).blk t).view.emb j)
  refine (pay_apply (iblk2 V c 0 t) (iblk2 V c 1 t) j).trans ?_
  unfold prod
  refine Finset.sum_congr rfl fun k _ => ?_
  have h0 : ((cfg2.win 0).blk t).view.emb (brow j k) = lrow (((cfg2.win 2).blk t).view.emb j) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have h1 : ((cfg2.win 1).blk t).view.emb (bcol j k) = rcol (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  have hx : iblk2 V c 0 t (brow j k) = V c main_v50 (lrow (((cfg2.win 2).blk t).view.emb j) k) := by
    unfold iblk2
    rw [View.read_apply]
    exact congrArg (V c main_v50) h0
  have hw : iblk2 V c 1 t (bcol j k) = V c main_v51 (rcol (((cfg2.win 2).blk t).view.emb j) k) := by
    unfold iblk2
    rw [View.read_apply]
    exact congrArg (V c main_v51) h1
  rw [hx, hw]

/-- An index of the result array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v52).slice (win2_2.rect t)).set ↔ _
  rw [View.set_slice_whole, Rect.mem_set_unit]
  exact Iff.rfl

/-- The ten blocks tile the result array: row `r` lies in the block of point `r / 10000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The result array after the launch is the whole-array product of the two operands as the launch finds them. -/
theorem final (c : Dev nD) : (dat2 V c).arrAt 2 cfg2.N = prod (V c main_v50) (V c main_v51) :=
  (dat2 V c).arrAt_eq_of_cover 2 (prod (V c main_v50) (V c main_v51)) (fun t _ => flushed_eq V c t) cover

end Cert.KernelIdeal.Fold.ProductB

end
-- ==== Proof.BiasB.lean ====
/-
  The fourth launch: the second layer's bias and rectifier, ten thousand rows at a time.  Each grid point adds the one bias
  row to its block of the aggregated features and takes the maximum with zero; the ten blocks tile the result.
-/
import proofs.«145758_j64321430225634_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Fold.BiasB

open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-! ## The whole-array function -/

/-- The one row of the bias at the column of `i`. -/
abbrev biasAt (i : S100000x64.Idx) : S1x64.Idx := fun a => match a with
  | ⟨0, _⟩ => ⟨0, Nat.zero_lt_one⟩
  | ⟨1, _⟩ => ⟨(i 1).val, (i 1).isLt⟩

/-- Entry by entry: the bias of the entry's column added, then the maximum with the float zero,
    `max (a[r, q] + b[0, q]) 0`. The zero is kept as its word: both programs spell the same one. -/
def biasRelu (a : S100000x64.Idx → EReal) (b : S1x64.Idx → EReal) : S100000x64.Idx → EReal :=
  fun i => max (a i + b (biasAt i)) (Ideal.ofBits .f32 0x00000000#32)

/-! ## One block -/

abbrev biasIn (j : S10000x64.Idx) : S1x64.Idx := fun a => match a with
  | ⟨0, _⟩ => ⟨0, Nat.zero_lt_one⟩
  | ⟨1, _⟩ => ⟨(j 1).val, (j 1).isLt⟩

/-- The body's one store holds, at `[r, q]` of the block, `max (x[r, q] + b[0, q]) 0`: the bias row is broadcast
    over the block's rows, the sum and the maximum are pointwise. -/
theorem pay_apply (b0 : FVec Ideal S1x64 .f32) (x : FVec Ideal S10000x64 .f32) (j : S10000x64.Idx) :
    (k3_pay1 (F := Ideal) b0 x j : EReal) = max ((x j : EReal) + (b0 (biasIn j) : EReal)) (Ideal.ofBits .f32 0x00000000#32) := by
  unfold k3_pay1
  simp only [shapeCast_self]
  have hb : broadcastTo S10000x64 b0 broadcasts_S1x64_S10000x64 j = b0 (biasIn j) :=
    broadcastTo_apply b0 broadcasts_S1x64_S10000x64 j (biasIn j) (fun a => by
      match a with
      | ⟨0, _⟩ => rfl
      | ⟨1, _⟩ => rfl)
  show max ((x j : EReal) + (broadcastTo S10000x64 b0 broadcasts_S1x64_S10000x64 j : EReal)) (Ideal.ofBits .f32 0x00000000#32) = _
  rw [hb]

/-! ## From blocks to the array -/

/-- The index maps over the grid's ten points: point `t` takes rows `10000 t … 10000 t + 9999` of the operand and of the
    result, and the one bias row. -/
theorem idx_facts : ∀ t : Fin cfg3.N, win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every block of ten thousand rows is some point's. -/
theorem idx_onto : ∀ q : Fin 10, ∃ t : Fin cfg3.N, win3_2.index t = ![q.val, 0] :=
  (by decide +kernel : ∀ q : Fin 10, ∃ t : Fin grid3.N, win3_2.index t = ![q.val, 0])

/-- What point `t` writes back is block `t` of the whole-array function of the two operands as the launch finds them. -/
theorem flushed_eq (c : Dev nD) (t : Fin cfg3.N) :
    (dat3 V c).flushed 2 t = ((cfg3.win 2).blk t).view.read (Elt Ideal) (biasRelu (V c main_v65) (V c main_v66)) := by
  show (cfg3.win 2).cut (grid3.coords t) ((dat3 V c).after 2 t) = _
  rw [after3_2]
  unfold out3_2
  rw [View.canon_unit_zero origin]
  simp only [View.ld_unit_zero (S := S10000x64) origin, View.ld_unit_zero (S := S1x64) origin]
  obtain ⟨e0, e1, e2, e3, e4, e5⟩ := idx_facts t
  funext j
  show k3_pay1 (iblk3 V c 1 t) (iblk3 V c 0 t) j = biasRelu (V c main_v65) (V c main_v66) (((cfg3.win 2).blk t).view.emb j)
  refine (pay_apply (iblk3 V c 1 t) (iblk3 V c 0 t) j).trans ?_
  unfold biasRelu
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (biasIn j) = biasAt (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  have hx : iblk3 V c 0 t j = V c main_v65 (((cfg3.win 2).blk t).view.emb j) := by
    unfold iblk3
    rw [View.read_apply]
    exact congrArg (V c main_v65) h0
  have hb : iblk3 V c 1 t (biasIn j) = V c main_v66 (biasAt (((cfg3.win 2).blk t).view.emb j)) := by
    unfold iblk3
    rw [View.read_apply]
    exact congrArg (V c main_v66) h1
  rw [hx, hb]

/-- An index of the result array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v67).slice (win3_2.rect t)).set ↔ _
  rw [View.set_slice_whole, Rect.mem_set_unit]
  exact Iff.rfl

/-- The ten blocks tile the result array: row `r` lies in the block of point `r / 10000`. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array after the launch is the whole-array function of the two operands as the launch finds them. -/
theorem final (c : Dev nD) : (dat3 V c).arrAt 2 cfg3.N = biasRelu (V c main_v65) (V c main_v66) :=
  (dat3 V c).arrAt_eq_of_cover 2 (biasRelu (V c main_v65) (V c main_v66)) (fun t _ => flushed_eq V c t) cover

end Cert.KernelIdeal.Fold.BiasB

end
-- ==== Proof.KernelFold.lean ====
/-
  The idealized kernel's result as one function of its arguments.  The device's buffer contents at the return are a fold of
  eleven steps from the launch memory (`W0 … W11`): a stretch of host operations maps the contents through its operations, a
  launch replaces its result array by what its ten write-backs leave and touches nothing else.  Walking the fold, and naming
  at each boundary only what later code reads: before the first launch the edge endpoints, the edge weights and the two
  operands; after it the product `x · W1`; then the first aggregation and the bias row; the bias and rectifier; the two
  operands of the second product; the product; the second aggregation; the bias and rectifier; and last the mean over each
  graph.  Nothing here opens an aggregation or the pooling: they are carried as functions.
-/
import proofs.«145758_j64321430225634_1_alg».proof.Proof.Gen.KernelIdeal.Frame
import proofs.«145758_j64321430225634_1_alg».proof.Proof.GraphK
import proofs.«145758_j64321430225634_1_alg».proof.Proof.HostEdges
import proofs.«145758_j64321430225634_1_alg».proof.Proof.HostWeights
import proofs.«145758_j64321430225634_1_alg».proof.Proof.HostOperands
import proofs.«145758_j64321430225634_1_alg».proof.Proof.HostStages
import proofs.«145758_j64321430225634_1_alg».proof.Proof.ProductA
import proofs.«145758_j64321430225634_1_alg».proof.Proof.BiasA
import proofs.«145758_j64321430225634_1_alg».proof.Proof.ProductB
import proofs.«145758_j64321430225634_1_alg».proof.Proof.BiasB

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.KernelIdeal.Graph

/-! ## The kernel's function of its seven arguments -/

section Value

variable (x : F32 Ideal S100000x128) (w1 : F32 Ideal S128x64) (b1 : F32 Ideal S64) (w2 : F32 Ideal S64x64) (b2 : F32 Ideal S64)
  (e : I32 Ideal S2x3200000) (batch : I32 Ideal S100000)

/-- The first product as the kernel computes it: block by block, from the operands in the narrow format. -/
def prodA : F32 Ideal S100000x64 :=
  ProductA.prod (truncf (F := Ideal) .bf16 x bitsLt_bf16_f32) (truncf (F := Ideal) .bf16 w1 bitsLt_bf16_f32)

/-- The first product's rows summed over each node's incoming edges, with the edge weights. -/
def aggA : F32 Ideal S100000x64 :=
  aggregate (sources e) (targets e) (edgeNorm (sources e) (targets e)) (prodA x w1)

/-- The first layer's output: the bias row added and the rectifier. -/
def hidden : F32 Ideal S100000x64 :=
  BiasA.biasRelu (aggA x w1 e) (shapeCast S1x64 b1 shapeCasts_S64_S1x64)

/-- The second product, of the first layer's output by the second weight matrix. -/
def prodB : F32 Ideal S100000x64 :=
  ProductB.prod (truncf (F := Ideal) .bf16 (hidden x w1 b1 e) bitsLt_bf16_f32) (truncf (F := Ideal) .bf16 w2 bitsLt_bf16_f32)

/-- Its rows summed over each node's incoming edges. -/
def aggB : F32 Ideal S100000x64 :=
  aggregate (sources e) (targets e) (edgeNorm (sources e) (targets e)) (prodB x w1 b1 w2 e)

/-- The second layer's output. -/
def output : F32 Ideal S100000x64 :=
  BiasB.biasRelu (aggB x w1 b1 w2 e) (shapeCast S1x64 b2 shapeCasts_S64_S1x64)

/-- The kernel's result: the second layer's output averaged over each graph of the batch. -/
def result : F32 Ideal S512x64 := meanPool batch (output x w1 b1 w2 b2 e)

end Value

/-! ## The fold, walked -/

variable (m : (ℓ : Loc nD τ sig) → Buf (Elt Ideal) ℓ) (ρ : Dev nD → PrngReg)

set_option maxHeartbeats 1600000 in
/-- The result buffer's final contents are the kernel's function of the argument arrays as launched. -/
theorem W11_result (c : Dev nD) :
    W11 m ρ c (Proc.devRef .tc main_v79)
      = result (W0 m ρ c (Proc.devRef .tc main_arg0)) (W0 m ρ c (Proc.devRef .tc main_arg1)) (W0 m ρ c (Proc.devRef .tc main_arg2))
          (W0 m ρ c (Proc.devRef .tc main_arg3)) (W0 m ρ c (Proc.devRef .tc main_arg4)) (W0 m ρ c (Proc.devRef .tc main_arg5))
          (W0 m ρ c (Proc.devRef .tc main_arg6)) := by
  -- before the first launch: the endpoints, the weights, the two operands, and the arguments kept
  have h3_v3 : W3 m ρ c (Proc.devRef .tc main_v3) = (sources (W0 m ρ c (Proc.devRef .tc main_arg5))) := Stages.pre_v3 (W0 m ρ c)
  have h3_v6 : W3 m ρ c (Proc.devRef .tc main_v6) = (targets (W0 m ρ c (Proc.devRef .tc main_arg5))) := Stages.pre_v6 (W0 m ρ c)
  have h3_v31 : W3 m ρ c (Proc.devRef .tc main_v31) = (edgeNorm (sources (W0 m ρ c (Proc.devRef .tc main_arg5))) (targets (W0 m ρ c (Proc.devRef .tc main_arg5)))) := Stages.pre_v31 (W0 m ρ c)
  have h3_v32 : W3 m ρ c (Proc.devRef .tc main_v32) = truncf (F := Ideal) .bf16 ((W0 m ρ c (Proc.devRef .tc main_arg0)) : F32 Ideal S100000x128) bitsLt_bf16_f32 := Stages.pre_v32 (W0 m ρ c)
  have h3_v33 : W3 m ρ c (Proc.devRef .tc main_v33) = truncf (F := Ideal) .bf16 ((W0 m ρ c (Proc.devRef .tc main_arg1)) : F32 Ideal S128x64) bitsLt_bf16_f32 := Stages.pre_v33 (W0 m ρ c)
  have h3_a2 : W3 m ρ c (Proc.devRef .tc main_arg2) = (W0 m ρ c (Proc.devRef .tc main_arg2)) := Stages.pre_keep_arg2 (W0 m ρ c)
  have h3_a3 : W3 m ρ c (Proc.devRef .tc main_arg3) = (W0 m ρ c (Proc.devRef .tc main_arg3)) := Stages.pre_keep_arg3 (W0 m ρ c)
  have h3_a4 : W3 m ρ c (Proc.devRef .tc main_arg4) = (W0 m ρ c (Proc.devRef .tc main_arg4)) := Stages.pre_keep_arg4 (W0 m ρ c)
  have h3_a6 : W3 m ρ c (Proc.devRef .tc main_arg6) = (W0 m ρ c (Proc.devRef .tc main_arg6)) := Stages.pre_keep_arg6 (W0 m ρ c)
  -- the first launch: its result array is the product; nothing else moves
  have h4_v34 : W4 m ρ c (Proc.devRef .tc main_v34) = (prodA (W0 m ρ c (Proc.devRef .tc main_arg0)) (W0 m ρ c (Proc.devRef .tc main_arg1))) :=
    (W4_arr m ρ c 2).trans ((ProductA.final (V3 m ρ) c).trans (congrArg₂ ProductA.prod h3_v32 h3_v33))
  have h4_v3 : W4 m ρ c (Proc.devRef .tc main_v3) = (sources (W0 m ρ c (Proc.devRef .tc main_arg5))) := (W4_of_ne m ρ c main_v3 (by decide)).trans h3_v3
  have h4_v6 : W4 m ρ c (Proc.devRef .tc main_v6) = (targets (W0 m ρ c (Proc.devRef .tc main_arg5))) := (W4_of_ne m ρ c main_v6 (by decide)).trans h3_v6
  have h4_v31 : W4 m ρ c (Proc.devRef .tc main_v31) = (edgeNorm (sources (W0 m ρ c (Proc.devRef .tc main_arg5))) (targets (W0 m ρ c (Proc.devRef .tc main_arg5)))) := (W4_of_ne m ρ c main_v31 (by decide)).trans h3_v31
  have h4_a2 : W4 m ρ c (Proc.devRef .tc main_arg2) = (W0 m ρ c (Proc.devRef .tc main_arg2)) := (W4_of_ne m ρ c main_arg2 (by decide)).trans h3_a2
  have h4_a3 : W4 m ρ c (Proc.devRef .tc main_arg3) = (W0 m ρ c (Proc.devRef .tc main_arg3)) := (W4_of_ne m ρ c main_arg3 (by decide)).trans h3_a3
  have h4_a4 : W4 m ρ c (Proc.devRef .tc main_arg4) = (W0 m ρ c (Proc.devRef .tc main_arg4)) := (W4_of_ne m ρ c main_arg4 (by decide)).trans h3_a4
  have h4_a6 : W4 m ρ c (Proc.devRef .tc main_arg6) = (W0 m ρ c (Proc.devRef .tc main_arg6)) := (W4_of_ne m ρ c main_arg6 (by decide)).trans h3_a6
  -- the first aggregation, and the bias as one row
  have h5_v47 : W5 m ρ c (Proc.devRef .tc main_v47) = (aggA (W0 m ρ c (Proc.devRef .tc main_arg0)) (W0 m ρ c (Proc.devRef .tc main_arg1)) (W0 m ρ c (Proc.devRef .tc main_arg5))) := by
    have t := Stages.mid1_v47 (W4 m ρ c)
    rw [h4_v3, h4_v6, h4_v31, h4_v34] at t
    exact t
  have h5_v48 : W5 m ρ c (Proc.devRef .tc main_v48) = shapeCast S1x64 ((W0 m ρ c (Proc.devRef .tc main_arg2)) : F32 Ideal S64) shapeCasts_S64_S1x64 := by
    have t := Stages.mid1_v48 (W4 m ρ c)
    rw [h4_a2] at t
    exact t
  have h5_v3 : W5 m ρ c (Proc.devRef .tc main_v3) = (sources (W0 m ρ c (Proc.devRef .tc main_arg5))) := (Stages.mid1_keep_v3 (W4 m ρ c)).trans h4_v3
  have h5_v6 : W5 m ρ c (Proc.devRef .tc main_v6) = (targets (W0 m ρ c (Proc.devRef .tc main_arg5))) := (Stages.mid1_keep_v6 (W4 m ρ c)).trans h4_v6
  have h5_v31 : W5 m ρ c (Proc.devRef .tc main_v31) = (edgeNorm (sources (W0 m ρ c (Proc.devRef .tc main_arg5))) (targets (W0 m ρ c (Proc.devRef .tc main_arg5)))) := (Stages.mid1_keep_v31 (W4 m ρ c)).trans h4_v31
  have h5_a3 : W5 m ρ c (Proc.devRef .tc main_arg3) = (W0 m ρ c (Proc.devRef .tc main_arg3)) := (Stages.mid1_keep_arg3 (W4 m ρ c)).trans h4_a3
  have h5_a4 : W5 m ρ c (Proc.devRef .tc main_arg4) = (W0 m ρ c (Proc.devRef .tc main_arg4)) := (Stages.mid1_keep_arg4 (W4 m ρ c)).trans h4_a4
  have h5_a6 : W5 m ρ c (Proc.devRef .tc main_arg6) = (W0 m ρ c (Proc.devRef .tc main_arg6)) := (Stages.mid1_keep_arg6 (W4 m ρ c)).trans h4_a6
  -- the second launch: the bias and the rectifier
  have h6_v49 : W6 m ρ c (Proc.devRef .tc main_v49) = (hidden (W0 m ρ c (Proc.devRef .tc main_arg0)) (W0 m ρ c (Proc.devRef .tc main_arg1)) (W0 m ρ c (Proc.devRef .tc main_arg2)) (W0 m ρ c (Proc.devRef .tc main_arg5))) :=
    (W6_arr m ρ c 2).trans ((BiasA.final (V5 m ρ) c).trans (congrArg₂ BiasA.biasRelu h5_v47 h5_v48))
  have h6_v3 : W6 m ρ c (Proc.devRef .tc main_v3) = (sources (W0 m ρ c (Proc.devRef .tc main_arg5))) := (W6_of_ne m ρ c main_v3 (by decide)).trans h5_v3
  have h6_v6 : W6 m ρ c (Proc.devRef .tc main_v6) = (targets (W0 m ρ c (Proc.devRef .tc main_arg5))) := (W6_of_ne m ρ c main_v6 (by decide)).trans h5_v6
  have h6_v31 : W6 m ρ c (Proc.devRef .tc main_v31) = (edgeNorm (sources (W0 m ρ c (Proc.devRef .tc main_arg5))) (targets (W0 m ρ c (Proc.devRef .tc main_arg5)))) := (W6_of_ne m ρ c main_v31 (by decide)).trans h5_v31
  have h6_a3 : W6 m ρ c (Proc.devRef .tc main_arg3) = (W0 m ρ c (Proc.devRef .tc main_arg3)) := (W6_of_ne m ρ c main_arg3 (by decide)).trans h5_a3
  have h6_a4 : W6 m ρ c (Proc.devRef .tc main_arg4) = (W0 m ρ c (Proc.devRef .tc main_arg4)) := (W6_of_ne m ρ c main_arg4 (by decide)).trans h5_a4
  have h6_a6 : W6 m ρ c (Proc.devRef .tc main_arg6) = (W0 m ρ c (Proc.devRef .tc main_arg6)) := (W6_of_ne m ρ c main_arg6 (by decide)).trans h5_a6
  -- the second product's operands
  have h7_v50 : W7 m ρ c (Proc.devRef .tc main_v50) = truncf (F := Ideal) .bf16 ((hidden (W0 m ρ c (Proc.devRef .tc main_arg0)) (W0 m ρ c (Proc.devRef .tc main_arg1)) (W0 m ρ c (Proc.devRef .tc main_arg2)) (W0 m ρ c (Proc.devRef .tc main_arg5))) : F32 Ideal S100000x64) bitsLt_bf16_f32 := by
    have t := Stages.mid2_v50 (W6 m ρ c)
    rw [h6_v49] at t
    exact t
  have h7_v51 : W7 m ρ c (Proc.devRef .tc main_v51) = truncf (F := Ideal) .bf16 ((W0 m ρ c (Proc.devRef .tc main_arg3)) : F32 Ideal S64x64) bitsLt_bf16_f32 := by
    have t := Stages.mid2_v51 (W6 m ρ c)
    rw [h6_a3] at t
    exact t
  have h7_v3 : W7 m ρ c (Proc.devRef .tc main_v3) = (sources (W0 m ρ c (Proc.devRef .tc main_arg5))) := (Stages.mid2_keep_v3 (W6 m ρ c)).trans h6_v3
  have h7_v6 : W7 m ρ c (Proc.devRef .tc main_v6) = (targets (W0 m ρ c (Proc.devRef .tc main_arg5))) := (Stages.mid2_keep_v6 (W6 m ρ c)).trans h6_v6
  have h7_v31 : W7 m ρ c (Proc.devRef .tc main_v31) = (edgeNorm (sources (W0 m ρ c (Proc.devRef .tc main_arg5))) (targets (W0 m ρ c (Proc.devRef .tc main_arg5)))) := (Stages.mid2_keep_v31 (W6 m ρ c)).trans h6_v31
  have h7_a4 : W7 m ρ c (Proc.devRef .tc main_arg4) = (W0 m ρ c (Proc.devRef .tc main_arg4)) := (Stages.mid2_keep_arg4 (W6 m ρ c)).trans h6_a4
  have h7_a6 : W7 m ρ c (Proc.devRef .tc main_arg6) = (W0 m ρ c (Proc.devRef .tc main_arg6)) := (Stages.mid2_keep_arg6 (W6 m ρ c)).trans h6_a6
  -- the third launch: the second product
  have h8_v52 : W8 m ρ c (Proc.devRef .tc main_v52) = (prodB (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg5))) :=
    (W8_arr m ρ c 2).trans ((ProductB.final (V7 m ρ) c).trans (congrArg₂ ProductB.prod h7_v50 h7_v51))
  have h8_v3 : W8 m ρ c (Proc.devRef .tc main_v3) = (sources (W0 m ρ c (Proc.devRef .tc main_arg5))) := (W8_of_ne m ρ c main_v3 (by decide)).trans h7_v3
  have h8_v6 : W8 m ρ c (Proc.devRef .tc main_v6) = (targets (W0 m ρ c (Proc.devRef .tc main_arg5))) := (W8_of_ne m ρ c main_v6 (by decide)).trans h7_v6
  have h8_v31 : W8 m ρ c (Proc.devRef .tc main_v31) = (edgeNorm (sources (W0 m ρ c (Proc.devRef .tc main_arg5))) (targets (W0 m ρ c (Proc.devRef .tc main_arg5)))) := (W8_of_ne m ρ c main_v31 (by decide)).trans h7_v31
  have h8_a4 : W8 m ρ c (Proc.devRef .tc main_arg4) = (W0 m ρ c (Proc.devRef .tc main_arg4)) := (W8_of_ne m ρ c main_arg4 (by decide)).trans h7_a4
  have h8_a6 : W8 m ρ c (Proc.devRef .tc main_arg6) = (W0 m ρ c (Proc.devRef .tc main_arg6)) := (W8_of_ne m ρ c main_arg6 (by decide)).trans h7_a6
  -- the second aggregation, and the bias as one row
  have h9_v65 : W9 m ρ c (Proc.devRef .tc main_v65) = (aggB (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg5))) := by
    have t := Stages.mid3_v65 (W8 m ρ c)
    rw [h8_v3, h8_v6, h8_v31, h8_v52] at t
    exact t
  have h9_v66 : W9 m ρ c (Proc.devRef .tc main_v66) = shapeCast S1x64 ((W0 m ρ c (Proc.devRef .tc main_arg4)) : F32 Ideal S64) shapeCasts_S64_S1x64 := by
    have t := Stages.mid3_v66 (W8 m ρ c)
    rw [h8_a4] at t
    exact t
  have h9_a6 : W9 m ρ c (Proc.devRef .tc main_arg6) = (W0 m ρ c (Proc.devRef .tc main_arg6)) := (Stages.mid3_keep_arg6 (W8 m ρ c)).trans h8_a6
  -- the fourth launch: the bias and the rectifier
  have h10_v67 : W10 m ρ c (Proc.devRef .tc main_v67) = (output (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5))) :=
    (W10_arr m ρ c 2).trans ((BiasB.final (V9 m ρ) c).trans (congrArg₂ BiasB.biasRelu h9_v65 h9_v66))
  have h10_a6 : W10 m ρ c (Proc.devRef .tc main_arg6) = (W0 m ρ c (Proc.devRef .tc main_arg6)) := (W10_of_ne m ρ c main_arg6 (by decide)).trans h9_a6
  -- the mean over each graph
  have t := Stages.post_v79 (W10 m ρ c)
  rw [h10_a6, h10_v67] at t
  exact t

end Cert.KernelIdeal.Fold

end
-- ==== Proof.GraphR.lean ====
/-
  The graph side of the two-layer network, as pure functions of arrays: what both programs do with the edge list
  outside the dense stages.  An edge list `e : i32[2, E]` gives `E + n` directed edges — row 0 the sources, row 1 the targets,
  then one self loop per node.  `degree` counts the edges into each node, `invSqrtDegree` is `deg^(-1/2)` where the degree is
  positive and zero elsewhere, `edgeNorm` is the product of that number at an edge's two ends, `aggregate` sums into each
  node the features of its in-neighbours weighted by `edgeNorm`, and `meanPool` averages node features over each graph
  of the batch.  Indices are normalised the way array indexing does it (a negative index has `n` added) before a row is
  fetched; rows are accumulated at the raw target index.
-/
import proofs.«145758_j64321430225634_1_alg».proof.ReferenceIdeal
import proofs.«145758_j64321430225634_1_alg».proof.Proof.Gen.ReferenceIdeal

noncomputable section

open Idealize.ShloMosaic Idealize.ShloMosaic.TcCoe Idealize.SL.Sem

namespace Cert.ReferenceIdeal.Graph

open Cert.ReferenceIdeal Cert.ReferenceIdeal.Facts₀ Cert.ReferenceIdeal.Facts

variable {F : FTy → Type} [FloatOps F]

/-- Integer, float and boolean arrays of a shape, at the instance `F`. -/
abbrev I32 (F : FTy → Type) (s : Shape) : Type := (⟨s, .i32⟩ : BufTy).Contents (Elt F)
abbrev F32 (F : FTy → Type) (s : Shape) : Type := (⟨s, .f32⟩ : BufTy).Contents (Elt F)
abbrev I1 (F : FTy → Type) (s : Shape) : Type := (⟨s, .i1⟩ : BufTy).Contents (Elt F)

/-- Row 0 of the edge list, then the nodes `0 … n - 1`: every edge's source, the self loops last. -/
def sources (e : I32 F S2x3200000) : I32 F S3300000 :=
  concatenate S3300000 0 [⟨S3200000, shapeCast S3200000 (extractStridedSlice S1x3200000 ![0, 0] e slices_S2x3200000_S1x3200000_0_0) shapeCasts_S1x3200000_S3200000⟩, ⟨S100000, (iotaInDim S100000 32 0 : I32 F S100000)⟩] concatenates_S3200000_S100000_S3300000_d0

/-- Row 1 of the edge list, then the nodes `0 … n - 1`: every edge's target. -/
def targets (e : I32 F S2x3200000) : I32 F S3300000 :=
  concatenate S3300000 0 [⟨S3200000, shapeCast S3200000 (extractStridedSlice S1x3200000 ![1, 0] e slices_S2x3200000_S1x3200000_1_0) shapeCasts_S1x3200000_S3200000⟩, ⟨S100000, (iotaInDim S100000 32 0 : I32 F S100000)⟩] concatenates_S3200000_S100000_S3300000_d0

/-- A vector of node indices made ready to fetch rows with: `v + n` where `v < 0`, as a column. -/
def wrap (v : I32 F S3300000) : I32 F S3300000x1 :=
  broadcastInDim S3300000x1 ![0] bcast_S3300000_S3300000x1_0
    ((select : I1 F S3300000 → I32 F S3300000 → I32 F S3300000 → I32 F S3300000)
      ((cmpi .slt : I32 F S3300000 → I32 F S3300000 → I1 F S3300000) v (broadcastInDim S3300000 ![] bcast_S_S3300000 (constantI S_ 32 0#32 : I32 F S_)))
      ((addi : I32 F S3300000 → I32 F S3300000 → I32 F S3300000) v (broadcastInDim S3300000 ![] bcast_S_S3300000 (constantI S_ 32 100000#32 : I32 F S_)))
      v)

/-- The number of edges into each node: ones added up at the targets. -/
def degree (dst : I32 F S3300000) : F32 F S100000 :=
  Host.scatterAdd (F := F) scatter_S100000_S3300000x1_S3300000_n_0_0_1
    (broadcastInDim S100000 ![] bcast_S_S100000 (constant (F := F) S_ .f32 0x00000000#32))
    (broadcastInDim S3300000x1 ![0] bcast_S3300000_S3300000x1_0 dst)
    (broadcastInDim S3300000 ![] bcast_S_S3300000 (constant (F := F) S_ .f32 0x3F800000#32))

/-- `deg^(-1/2)` where the degree is positive (the degree first raised to a tiny floor), zero elsewhere. -/
def invSqrtDegree (dst : I32 F S3300000) : F32 F S100000 :=
  (select : I1 F S100000 → F32 F S100000 → F32 F S100000 → F32 F S100000)
    ((cmpf .ogt : F32 F S100000 → F32 F S100000 → I1 F S100000) (degree dst) (broadcastInDim S100000 ![] bcast_S_S100000 (constant (F := F) S_ .f32 0x00000000#32)))
    ((Host.rsqrt : F32 F S100000 → F32 F S100000) ((maximumf : F32 F S100000 → F32 F S100000 → F32 F S100000) (degree dst) (broadcastInDim S100000 ![] bcast_S_S100000 (constant (F := F) S_ .f32 0x2B8CBCCC#32))))
    (broadcastInDim S100000 ![] bcast_S_S100000 ((id : F32 F S_ → F32 F S_) (constant (F := F) S_ .f32 0x00000000#32)))

/-- The weight of an edge: `deg^(-1/2)` at its source times `deg^(-1/2)` at its target. -/
def edgeNorm (src dst : I32 F S3300000) : F32 F S3300000 :=
  (mulf : F32 F S3300000 → F32 F S3300000 → F32 F S3300000)
    (Host.gather gather_S100000_S3300000x1_S3300000_n_0_n_n_0_1_1 (invSqrtDegree dst) (wrap src))
    (Host.gather gather_S100000_S3300000x1_S3300000_n_0_n_n_0_1_1 (invSqrtDegree dst) (wrap dst))

/-- Into each node, the sum over its incoming edges of the source's feature row times the edge's weight. -/
def aggregate (src dst : I32 F S3300000) (nrm : F32 F S3300000) (h : F32 F S100000x64) : F32 F S100000x64 :=
  Host.scatterAdd (F := F) scatter_S100000x64_S3300000x1_S3300000x64_1_0_0_1
    (broadcastInDim S100000x64 ![] bcast_S_S100000x64 (constant (F := F) S_ .f32 0x00000000#32))
    (broadcastInDim S3300000x1 ![0] bcast_S3300000_S3300000x1_0 dst)
    ((mulf : F32 F S3300000x64 → F32 F S3300000x64 → F32 F S3300000x64)
      (Host.gather gather_S100000x64_S3300000x1_S3300000x64_1_0_n_n_0_1_164 h (wrap src))
      (broadcastInDim S3300000x64 ![0, 1] bcast_S3300000x1_S3300000x64_0_1 (broadcastInDim S3300000x1 ![0] bcast_S3300000_S3300000x1_0 nrm)))

/-- Per graph of the batch: the sum of its nodes' feature rows over the number of its nodes (at least one). -/
def meanPool (batch : I32 F S100000) (h : F32 F S100000x64) : F32 F S512x64 :=
  (Host.divf : F32 F S512x64 → F32 F S512x64 → F32 F S512x64)
    (Host.scatterAdd (F := F) scatter_S512x64_S100000x1_S100000x64_1_0_0_1
      (broadcastInDim S512x64 ![] bcast_S_S512x64 (constant (F := F) S_ .f32 0x00000000#32))
      (broadcastInDim S100000x1 ![0] bcast_S100000_S100000x1_0 batch) h)
    (broadcastInDim S512x64 ![0, 1] bcast_S512x1_S512x64_0_1 (broadcastInDim S512x1 ![0] bcast_S512_S512x1_0
      ((maximumf : F32 F S512 → F32 F S512 → F32 F S512)
        (Host.scatterAdd (F := F) scatter_S512_S100000x1_S100000_n_0_0_1
          (broadcastInDim S512 ![] bcast_S_S512 (constant (F := F) S_ .f32 0x00000000#32))
          (broadcastInDim S100000x1 ![0] bcast_S100000_S100000x1_0 batch)
          (broadcastInDim S100000 ![] bcast_S_S100000 (constant (F := F) S_ .f32 0x3F800000#32)))
        (broadcastInDim S512 ![] bcast_S_S512 (constant (F := F) S_ .f32 0x3F800000#32)))))

end Cert.ReferenceIdeal.Graph

end
-- ==== Proof.RefFold.lean ====
/-
  The idealized reference's result as one function of its arguments.  Its @main is a single line of 141 host operations;
  `StableHlo.after ops V` is what the buffers hold once the line has run from contents `V`.  The line is cut after its seventh
  operation: the first seven build the edge endpoints (two slices of the edge list, each joined with the self loops), and
  the remaining 134 — read for ANY contents they start from — compute the two layers and the pooling from the endpoints and
  the arguments.  The reference recomputes the edge weights for its second layer; both copies are the same function of the
  endpoints.
-/
import proofs.«145758_j64321430225634_1_alg».proof.Proof.RefRun
import proofs.«145758_j64321430225634_1_alg».proof.Proof.GraphR
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Fold

open Cert.ReferenceIdeal Cert.ReferenceIdeal.Gen Cert.ReferenceIdeal.Graph

variable {F : FTy → Type} [FloatOps F]

/-- Two lines run one after the other: the second starts from what the first leaves. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-! ## The reference's function, from the edge endpoints -/

section Value

variable (src dst : I32 F S3300000)
  (x : F32 F S100000x128) (w1 : F32 F S128x64) (b1 : F32 F S64) (w2 : F32 F S64x64) (b2 : F32 F S64) (batch : I32 F S100000)

/-- The first layer: the matrix product, the aggregation over the edges, the bias broadcast over the rows and added,
    the rectifier. -/
def hiddenFrom : F32 F S100000x64 :=
  (maximumf : F32 F S100000x64 → F32 F S100000x64 → F32 F S100000x64)
    ((addf : F32 F S100000x64 → F32 F S100000x64 → F32 F S100000x64)
      (aggregate src dst (edgeNorm src dst) (Host.dotGeneral (F := F) dot_S100000x128_S128x64_S100000x64_1_0_0_1_n_n none x w1))
      (broadcastInDim S100000x64 ![0, 1] bcast_S1x64_S100000x64_0_1 (broadcastInDim S1x64 ![1] bcast_S64_S1x64_1 b1)))
    (broadcastInDim S100000x64 ![] bcast_S_S100000x64 (constant (F := F) S_ .f32 0x00000000#32))

/-- The second layer, the same on the first layer's output. -/
def outputFrom : F32 F S100000x64 :=
  (maximumf : F32 F S100000x64 → F32 F S100000x64 → F32 F S100000x64)
    ((addf : F32 F S100000x64 → F32 F S100000x64 → F32 F S100000x64)
      (aggregate src dst (edgeNorm src dst) (Host.dotGeneral (F := F) dot_S100000x64_S64x64_S100000x64_1_0_0_1_n_n none (hiddenFrom src dst x w1 b1) w2))
      (broadcastInDim S100000x64 ![0, 1] bcast_S1x64_S100000x64_0_1 (broadcastInDim S1x64 ![1] bcast_S64_S1x64_1 b2)))
    (broadcastInDim S100000x64 ![] bcast_S_S100000x64 (constant (F := F) S_ .f32 0x00000000#32))

/-- The result: the second layer's output averaged over each graph of the batch. -/
def resultFrom : F32 F S512x64 := meanPool batch (outputFrom src dst x w1 b1 w2 b2)

end Value

/-- The reference's result as a function of its seven arguments. -/
def result (x : F32 F S100000x128) (w1 : F32 F S128x64) (b1 : F32 F S64) (w2 : F32 F S64x64) (b2 : F32 F S64)
    (e : I32 F S2x3200000) (batch : I32 F S100000) : F32 F S512x64 :=
  resultFrom (sources e) (targets e) x w1 b1 w2 b2 batch

/-! ## The first seven operations: the edge endpoints -/

theorem head_v3 (Vin : Valuation τ sig (Elt F)) :
    StableHlo.after ((ValueP.ops (F := F)).take 7) Vin (Proc.devRef .tc main_v3) = sources (Vin (Proc.devRef .tc main_arg5)) := by
  simp only [ValueP.ops, List.take_succ_cons, List.take_zero]
  after_results
  rfl

theorem head_v6 (Vin : Valuation τ sig (Elt F)) :
    StableHlo.after ((ValueP.ops (F := F)).take 7) Vin (Proc.devRef .tc main_v6) = targets (Vin (Proc.devRef .tc main_arg5)) := by
  simp only [ValueP.ops, List.take_succ_cons, List.take_zero]
  after_results
  rfl

theorem head_keep_arg0 (Vin : Valuation τ sig (Elt F)) :
    StableHlo.after ((ValueP.ops (F := F)).take 7) Vin (Proc.devRef .tc main_arg0) = Vin (Proc.devRef .tc main_arg0) := by
  simp only [ValueP.ops, List.take_succ_cons, List.take_zero]
  after_results_simp

theorem head_keep_arg1 (Vin : Valuation τ sig (Elt F)) :
    StableHlo.after ((ValueP.ops (F := F)).take 7) Vin (Proc.devRef .tc main_arg1) = Vin (Proc.devRef .tc main_arg1) := by
  simp only [ValueP.ops, List.take_succ_cons, List.take_zero]
  after_results_simp

theorem head_keep_arg2 (Vin : Valuation τ sig (Elt F)) :
    StableHlo.after ((ValueP.ops (F := F)).take 7) Vin (Proc.devRef .tc main_arg2) = Vin (Proc.devRef .tc main_arg2) := by
  simp only [ValueP.ops, List.take_succ_cons, List.take_zero]
  after_results_simp

theorem head_keep_arg3 (Vin : Valuation τ sig (Elt F)) :
    StableHlo.after ((ValueP.ops (F := F)).take 7) Vin (Proc.devRef .tc main_arg3) = Vin (Proc.devRef .tc main_arg3) := by
  simp only [ValueP.ops, List.take_succ_cons, List.take_zero]
  after_results_simp

theorem head_keep_arg4 (Vin : Valuation τ sig (Elt F)) :
    StableHlo.after ((ValueP.ops (F := F)).take 7) Vin (Proc.devRef .tc main_arg4) = Vin (Proc.devRef .tc main_arg4) := by
  simp only [ValueP.ops, List.take_succ_cons, List.take_zero]
  after_results_simp

theorem head_keep_arg6 (Vin : Valuation τ sig (Elt F)) :
    StableHlo.after ((ValueP.ops (F := F)).take 7) Vin (Proc.devRef .tc main_arg6) = Vin (Proc.devRef .tc main_arg6) := by
  simp only [ValueP.ops, List.take_succ_cons, List.take_zero]
  after_results_simp

/-! ## The other 134 operations, from any contents -/

set_option maxHeartbeats 56400000 in
theorem tail_v104 (Vin : Valuation τ sig (Elt F)) :
    StableHlo.after ((ValueP.ops (F := F)).drop 7) Vin (Proc.devRef .tc main_v104)
      = resultFrom (Vin (Proc.devRef .tc main_v3)) (Vin (Proc.devRef .tc main_v6)) (Vin (Proc.devRef .tc main_arg0)) (Vin (Proc.devRef .tc main_arg1))
          (Vin (Proc.devRef .tc main_arg2)) (Vin (Proc.devRef .tc main_arg3)) (Vin (Proc.devRef .tc main_arg4)) (Vin (Proc.devRef .tc main_arg6)) := by
  simp only [ValueP.ops, List.drop_succ_cons, List.drop_zero]
  after_results_simp
  rfl

/-! ## The whole line -/

/-- The result buffer's final contents are the reference's function of the argument arrays as launched. -/
theorem after_result (m : (ℓ : Loc nD τ sig) → Buf (Elt F) ℓ) (c : Dev nD) :
    StableHlo.after (ValueP.ops (F := F)) (launchContents m c) (Proc.devRef .tc main_v104)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  have hcut : StableHlo.after (ValueP.ops (F := F)) (launchContents m c)
      = StableHlo.after ((ValueP.ops (F := F)).drop 7) (StableHlo.after ((ValueP.ops (F := F)).take 7) (launchContents m c)) := by
    rw [← after_append, List.take_append_drop]
  rw [hcut, tail_v104, head_v3, head_v6, head_keep_arg0, head_keep_arg1, head_keep_arg2, head_keep_arg3, head_keep_arg4, head_keep_arg6]
  rfl

end Cert.ReferenceIdeal.Fold

end
-- ==== Proof.Bridge.lean ====
/-
  The two functions are one.  The kernel's result (KernelFold.lean) and the reference's (RefFold.lean) apply the same graph
  operations — written once and read in each program's own namespace of shapes — around two dense stages per layer, and the
  dense stages agree on the extended reals: ten blocks of `x · W` accumulated into zero from operands in the narrow format are
  the one product `∑ₖ x[r, k] · W[k, q]`, and `max (a[r, q] + b[0, q]) 0` with the bias as a row is `max (a + broadcast b) 0`.
  Neither law needs finiteness: no sum is reordered or distributed over.
-/
import proofs.«145758_j64321430225634_1_alg».proof.Proof.KernelFold
import proofs.«145758_j64321430225634_1_alg».proof.Proof.RefFold
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem

namespace Cert.Bridge

/-! ## The graph operations in the two namespaces -/

theorem sources_eq (e : Cert.KernelIdeal.Graph.I32 Ideal Cert.KernelIdeal.S2x3200000) :
    Cert.KernelIdeal.Graph.sources e = Cert.ReferenceIdeal.Graph.sources e := rfl
theorem targets_eq (e : Cert.KernelIdeal.Graph.I32 Ideal Cert.KernelIdeal.S2x3200000) :
    Cert.KernelIdeal.Graph.targets e = Cert.ReferenceIdeal.Graph.targets e := rfl
theorem edgeNorm_eq (s d : Cert.KernelIdeal.Graph.I32 Ideal Cert.KernelIdeal.S3300000) :
    Cert.KernelIdeal.Graph.edgeNorm s d = Cert.ReferenceIdeal.Graph.edgeNorm s d := rfl
theorem aggregate_eq (s d : Cert.KernelIdeal.Graph.I32 Ideal Cert.KernelIdeal.S3300000) (n : Cert.KernelIdeal.Graph.F32 Ideal Cert.KernelIdeal.S3300000)
    (h : Cert.KernelIdeal.Graph.F32 Ideal Cert.KernelIdeal.S100000x64) :
    Cert.KernelIdeal.Graph.aggregate s d n h = Cert.ReferenceIdeal.Graph.aggregate s d n h := rfl
theorem meanPool_eq (b : Cert.KernelIdeal.Graph.I32 Ideal Cert.KernelIdeal.S100000) (h : Cert.KernelIdeal.Graph.F32 Ideal Cert.KernelIdeal.S100000x64) :
    Cert.KernelIdeal.Graph.meanPool b h = Cert.ReferenceIdeal.Graph.meanPool b h := rfl

/-! ## The dense stages -/

/-! ### The reference's product of S100000x128 by S128x64 -/

theorem lhsA_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem lhsA_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rhsA_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rhsA_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- The host's product at an entry is the sum over the contraction index of the operands' products: the kernel's blocked
    product of the same operands (narrowing the format changes nothing on the extended reals). -/
theorem prodA_eq (x : FVec Ideal Cert.ReferenceIdeal.S100000x128 .f32) (w : FVec Ideal Cert.ReferenceIdeal.S128x64 .f32) :
    Cert.KernelIdeal.Fold.ProductA.prod (truncf .bf16 x Cert.KernelIdeal.Gen.bitsLt_bf16_f32) (truncf .bf16 w Cert.KernelIdeal.Gen.bitsLt_bf16_f32)
      = Host.dotGeneral (F := Ideal) Cert.ReferenceIdeal.dot_S100000x128_S128x64_S100000x64_1_0_0_1_n_n none x w := by
  funext i
  unfold Cert.KernelIdeal.Fold.ProductA.prod
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = Cert.KernelIdeal.Fold.ProductA.lrow i k := funext fun a => Fin.ext (by
    match a with
    | ⟨0, _⟩ => exact lhsA_0 _ _
    | ⟨1, _⟩ => exact (lhsA_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = Cert.KernelIdeal.Fold.ProductA.rcol i k := funext fun a => Fin.ext (by
    match a with
    | ⟨0, _⟩ => exact (rhsA_0 _ _).trans hk
    | ⟨1, _⟩ => exact rhsA_1 _ _)
  rw [el, er]
  rfl

/-! ### The reference's product of S100000x64 by S64x64 -/

theorem lhsB_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem lhsB_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhsB_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhsB_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The host's product at an entry is the sum over the contraction index of the operands' products: the kernel's blocked
    product of the same operands (narrowing the format changes nothing on the extended reals). -/
theorem prodB_eq (x : FVec Ideal Cert.ReferenceIdeal.S100000x64 .f32) (w : FVec Ideal Cert.ReferenceIdeal.S64x64 .f32) :
    Cert.KernelIdeal.Fold.ProductB.prod (truncf .bf16 x Cert.KernelIdeal.Gen.bitsLt_bf16_f32) (truncf .bf16 w Cert.KernelIdeal.Gen.bitsLt_bf16_f32)
      = Host.dotGeneral (F := Ideal) Cert.ReferenceIdeal.dot_S100000x64_S64x64_S100000x64_1_0_0_1_n_n none x w := by
  funext i
  unfold Cert.KernelIdeal.Fold.ProductB.prod
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = Cert.KernelIdeal.Fold.ProductB.lrow i k := funext fun a => Fin.ext (by
    match a with
    | ⟨0, _⟩ => exact lhsB_0 _ _
    | ⟨1, _⟩ => exact (lhsB_1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = Cert.KernelIdeal.Fold.ProductB.rcol i k := funext fun a => Fin.ext (by
    match a with
    | ⟨0, _⟩ => exact (rhsB_0 _ _).trans hk
    | ⟨1, _⟩ => exact rhsB_1 _ _)
  rw [el, er]
  rfl

/-- The kernel's form of the bias and rectifier — the bias as one row, read at the entry's column — is the reference's:
    the bias broadcast to a row, the row over all rows, added, and the maximum with the broadcast zero. -/
theorem biasA_eq (a : FVec Ideal Cert.ReferenceIdeal.S100000x64 .f32) (b : FVec Ideal Cert.ReferenceIdeal.S64 .f32) :
    Cert.KernelIdeal.Fold.BiasA.biasRelu a (shapeCast Cert.KernelIdeal.S1x64 b Cert.KernelIdeal.Gen.shapeCasts_S64_S1x64)
      = maximumf (F := Ideal) (addf (F := Ideal) a (broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 b)))
          (broadcastInDim Cert.ReferenceIdeal.S100000x64 ![] Cert.ReferenceIdeal.Gen.bcast_S_S100000x64 (constant (F := Ideal) Cert.ReferenceIdeal.S_ .f32 0x00000000#32)) := by
  funext i
  have hq : Cert.KernelIdeal.Fold.BiasA.biasAt i = ValueIdx.ix2 (0 : Fin 1) (⟨(i 1).val, (i 1).isLt⟩ : Fin 64) := funext fun a => by
    match a with
    | ⟨0, _⟩ => rfl
    | ⟨1, _⟩ => rfl
  have hL : shapeCast Cert.KernelIdeal.S1x64 b Cert.KernelIdeal.Gen.shapeCasts_S64_S1x64 (Cert.KernelIdeal.Fold.BiasA.biasAt i) = b (ValueIdx.ix1 (⟨(i 1).val, (i 1).isLt⟩ : Fin 64)) := by
    rw [hq]
    exact ValueIdx.shapeCast_a_1a_apply b Cert.KernelIdeal.Gen.shapeCasts_S64_S1x64 (0 : Fin 1) (⟨(i 1).val, (i 1).isLt⟩ : Fin 64)
  have hR : broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 b) i
      = b (ValueIdx.ix1 (⟨(i 1).val, (i 1).isLt⟩ : Fin 64)) := by
    rw [broadcastInDim_apply ![0, 1] Cert.ReferenceIdeal.Gen.bcast_S1x64_S100000x64_0_1 (broadcastInDim Cert.ReferenceIdeal.S1x64 ![1] Cert.ReferenceIdeal.Gen.bcast_S64_S1x64_1 b) i
      (ValueIdx.ix2 (0 : Fin 1) (⟨(i 1).val, (i 1).isLt⟩ : Fin 64)) (fun a => by
        match a with
        | ⟨0, _⟩ => rfl
        | ⟨1, _⟩ => rfl)]
    exact broadcastInDim_apply ![1] Cert.ReferenceIdeal.Gen.bcast_S64_S1x64_1 b (ValueIdx.ix2 (0 : Fin 1) (⟨(i 1).val, (i 1).isLt⟩ : Fin 64))
      (ValueIdx.ix1 (⟨(i 1).val, (i 1).isLt⟩ : Fin 64)) (fun a => by
        match a with
        | ⟨0, _⟩ => rfl)
  show max ((a i : EReal) + (shapeCast Cert.KernelIdeal.S1x64 b Cert.KernelIdeal.Gen.shapeCasts_S64_S1x64 (Cert.KernelIdeal.Fold.BiasA.biasAt i) : EReal)) (Ideal.ofBits .f32 0x00000000#32)
    = max ((a i : EReal) + (broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 b) i : EReal)) (Ideal.ofBits .f32 0x00000000#32)
  rw [hL, hR]

/-- The kernel's form of the bias and rectifier — the bias as one row, read at the entry's column — is the reference's:
    the bias broadcast to a row, the row over all rows, added, and the maximum with the broadcast zero. -/
theorem biasB_eq (a : FVec Ideal Cert.ReferenceIdeal.S100000x64 .f32) (b : FVec Ideal Cert.ReferenceIdeal.S64 .f32) :
    Cert.KernelIdeal.Fold.BiasB.biasRelu a (shapeCast Cert.KernelIdeal.S1x64 b Cert.KernelIdeal.Gen.shapeCasts_S64_S1x64)
      = maximumf (F := Ideal) (addf (F := Ideal) a (broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 b)))
          (broadcastInDim Cert.ReferenceIdeal.S100000x64 ![] Cert.ReferenceIdeal.Gen.bcast_S_S100000x64 (constant (F := Ideal) Cert.ReferenceIdeal.S_ .f32 0x00000000#32)) := by
  funext i
  have hq : Cert.KernelIdeal.Fold.BiasB.biasAt i = ValueIdx.ix2 (0 : Fin 1) (⟨(i 1).val, (i 1).isLt⟩ : Fin 64) := funext fun a => by
    match a with
    | ⟨0, _⟩ => rfl
    | ⟨1, _⟩ => rfl
  have hL : shapeCast Cert.KernelIdeal.S1x64 b Cert.KernelIdeal.Gen.shapeCasts_S64_S1x64 (Cert.KernelIdeal.Fold.BiasB.biasAt i) = b (ValueIdx.ix1 (⟨(i 1).val, (i 1).isLt⟩ : Fin 64)) := by
    rw [hq]
    exact ValueIdx.shapeCast_a_1a_apply b Cert.KernelIdeal.Gen.shapeCasts_S64_S1x64 (0 : Fin 1) (⟨(i 1).val, (i 1).isLt⟩ : Fin 64)
  have hR : broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 b) i
      = b (ValueIdx.ix1 (⟨(i 1).val, (i 1).isLt⟩ : Fin 64)) := by
    rw [broadcastInDim_apply ![0, 1] Cert.ReferenceIdeal.Gen.bcast_S1x64_S100000x64_0_1 (broadcastInDim Cert.ReferenceIdeal.S1x64 ![1] Cert.ReferenceIdeal.Gen.bcast_S64_S1x64_1 b) i
      (ValueIdx.ix2 (0 : Fin 1) (⟨(i 1).val, (i 1).isLt⟩ : Fin 64)) (fun a => by
        match a with
        | ⟨0, _⟩ => rfl
        | ⟨1, _⟩ => rfl)]
    exact broadcastInDim_apply ![1] Cert.ReferenceIdeal.Gen.bcast_S64_S1x64_1 b (ValueIdx.ix2 (0 : Fin 1) (⟨(i 1).val, (i 1).isLt⟩ : Fin 64))
      (ValueIdx.ix1 (⟨(i 1).val, (i 1).isLt⟩ : Fin 64)) (fun a => by
        match a with
        | ⟨0, _⟩ => rfl)
  show max ((a i : EReal) + (shapeCast Cert.KernelIdeal.S1x64 b Cert.KernelIdeal.Gen.shapeCasts_S64_S1x64 (Cert.KernelIdeal.Fold.BiasB.biasAt i) : EReal)) (Ideal.ofBits .f32 0x00000000#32)
    = max ((a i : EReal) + (broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 b) i : EReal)) (Ideal.ofBits .f32 0x00000000#32)
  rw [hL, hR]

/-! ## The two results -/

/-- On the extended reals the kernel's function of the seven arguments is the reference's. -/
theorem result_eq (x : FVec Ideal Cert.ReferenceIdeal.S100000x128 .f32) (w1 : FVec Ideal Cert.ReferenceIdeal.S128x64 .f32) (b1 : FVec Ideal Cert.ReferenceIdeal.S64 .f32)
    (w2 : FVec Ideal Cert.ReferenceIdeal.S64x64 .f32) (b2 : FVec Ideal Cert.ReferenceIdeal.S64 .f32)
    (e : Cert.ReferenceIdeal.Graph.I32 Ideal Cert.ReferenceIdeal.S2x3200000) (batch : Cert.ReferenceIdeal.Graph.I32 Ideal Cert.ReferenceIdeal.S100000) :
    Cert.KernelIdeal.Fold.result x w1 b1 w2 b2 e batch = Cert.ReferenceIdeal.Fold.result (F := Ideal) x w1 b1 w2 b2 e batch := by
  unfold Cert.KernelIdeal.Fold.result Cert.KernelIdeal.Fold.output Cert.KernelIdeal.Fold.aggB Cert.KernelIdeal.Fold.prodB
    Cert.KernelIdeal.Fold.hidden Cert.KernelIdeal.Fold.aggA Cert.KernelIdeal.Fold.prodA
  unfold Cert.ReferenceIdeal.Fold.result Cert.ReferenceIdeal.Fold.resultFrom Cert.ReferenceIdeal.Fold.outputFrom Cert.ReferenceIdeal.Fold.hiddenFrom
  rw [prodA_eq, biasA_eq, prodB_eq, biasB_eq, sources_eq, targets_eq, edgeNorm_eq, aggregate_eq, aggregate_eq, meanPool_eq]

end Cert.Bridge

end
-- ==== Proof.lean ====
/-
  A two-layer graph convolution with mean pooling, against its plain array reference, on the extended reals.

  Both programs build the same directed edges (the edge list plus one self loop per node), the same edge weights
  `deg^(-1/2)[source] · deg^(-1/2)[target]`, and compute twice `h ↦ max (A (h · W) + b) 0` — `A` the weighted sum over a node's
  incoming edges — and then average the node features over each graph of the batch.  They differ only in the dense stages:
  the kernel multiplies ten thousand rows at a time, from operands first narrowed to a shorter float format, into a zero
  accumulator, and adds the bias and takes the maximum block by block with the bias as one row; it also computes the edge
  weights once where the reference computes them per layer.  On the extended reals a change of format is the identity, the ten
  blocks of a product are the product, and the bias as a row is the bias broadcast: the two results are one function of the
  arguments (Bridge.lean), which the kernel's run (KernelRun.lean, KernelFold.lean) and the reference's run (RefRun.lean,
  RefFold.lean) both reach.  No law used needs the inputs finite; the precondition is not opened.
-/
import proofs.«145758_j64321430225634_1_alg».proof.Defs
import proofs.«145758_j64321430225634_1_alg».proof.Proof.Gen.Kernel
import proofs.«145758_j64321430225634_1_alg».proof.Proof.Gen.Kernel.Skeleton
import proofs.«145758_j64321430225634_1_alg».proof.Proof.Gen.Kernel.Launch
import proofs.«145758_j64321430225634_1_alg».proof.Proof.Gen.Kernel.Points
import proofs.«145758_j64321430225634_1_alg».proof.Proof.Gen.Kernel.Frame
import proofs.«145758_j64321430225634_1_alg».proof.Proof.Gen.KernelIdeal
import proofs.«145758_j64321430225634_1_alg».proof.Proof.Gen.KernelIdeal.Skeleton
import proofs.«145758_j64321430225634_1_alg».proof.Proof.Gen.KernelIdeal.Launch
import proofs.«145758_j64321430225634_1_alg».proof.Proof.Gen.KernelIdeal.Points
import proofs.«145758_j64321430225634_1_alg».proof.Proof.Gen.KernelIdeal.Frame
import proofs.«145758_j64321430225634_1_alg».proof.Proof.Gen.ReferenceIdeal
import proofs.«145758_j64321430225634_1_alg».proof.Proof.Gen.Pre_finite_inputs
import proofs.«145758_j64321430225634_1_alg».proof.Proof.KernelRun
import proofs.«145758_j64321430225634_1_alg».proof.Proof.KernelFold
import proofs.«145758_j64321430225634_1_alg».proof.Proof.RefRun
import proofs.«145758_j64321430225634_1_alg».proof.Proof.RefFold
import proofs.«145758_j64321430225634_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the seven arguments both idealized programs end with the same result array: the kernel's
    run ends at its function of the arguments, the reference's at its own, and the two functions are one. -/
theorem algebraic : Cert.algebraic_KernelIdeal_ReferenceIdeal := by
  intro m ρ m' ρ' _ hagree
  refine ⟨fun c => Cert.KernelIdeal.Fold.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.W11_result m ρ c), (h c).2⟩)
      (Cert.KernelIdeal.Fold.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6⟩ := hagree c
    rw [Cert.ReferenceIdeal.Fold.after_result m' c, a0, a1, a2, a3, a4, a5, a6]
    exact (Cert.Bridge.result_eq _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
